-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S128x128 : Shape := ⟨2, ![128, 128]⟩
abbrev S128x1 : Shape := ⟨2, ![128, 1]⟩
abbrev S128x8192 : Shape := ⟨2, ![128, 8192]⟩
abbrev S128 : Shape := ⟨1, ![128]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S8192x128, .f32⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  shapeCasts_S8192_S1x8192 : S8192.ShapeCasts S1x8192
  inb_S128x128_S128x128_0_0 : ∀ a, (![0, 0] : Fin 2 → Nat) a + S128x128.size a ≤ S128x128.size a
  h_S128x128 : 0 < S128x128.numel
  inb_S8192x128_S8192x128_0_0 : ∀ a, (![0, 0] : Fin 2 → Nat) a + S8192x128.size a ≤ S8192x128.size a
  h_S8192x128 : 0 < S8192x128.numel
  iota_S128x8192_d0_w32 : S128x8192.Iotas .tc 32 [0]
  iota_S128x8192_d1_w32 : S128x8192.Iotas .tc 32 [1]
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  reducesTo_S8192x1_S_d0_1 : S8192x1.ReducesTo [0, 1] S_
  h_S_ : 0 < S_.numel
  dot_S128x128_S8192x128_S128x8192_1_1_0_0_n_n_wf : DotDims.WF S128x128 S8192x128 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192x1 : S_.BroadcastsInDim S8192x1 (![] : Fin 0 → Fin S8192x1.rank)
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsBody.lean ====
/-
  The kernel's body at one grid point, and the data the pipeline rule asks about it.

  The grid has 64 points; point t works on rows 128 t … 128 t + 127. It is handed five staging buffers: the block of
  128 rows of the embeddings, the whole embeddings array (a second window on the same array), the 128 labels of its
  rows as a column, all labels as a row, and the 128 x 1 output block. The body loads the four inputs whole, computes
  one value per row, and overwrites the whole output block with them; it leaves the inputs as it found them. So after
  the body the output buffer holds one pure function of the four input blocks and of the point, and each input buffer
  still holds its block of the array as the region found it.

  The embeddings array is read through two windows at once, so neither can hold it outright: window 0 holds one half
  of it and window 1 the other half, and both halves say the same contents.
-/
import proofs.«176397_j5600637354498_1_alg».proof.Proof.Gen.Kernel.Launch
import proofs.«176397_j5600637354498_1_alg».proof.Proof.Gen.Kernel.Skeleton
import proofs.«176397_j5600637354498_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core c's buffers when the region is entered: the launch contents after the two reshapes of the labels. -/
def V (c : Dev nD) (b : Ref sig .tc) : Buf (Elt F) ((c : Thread nD τ).loc b) :=
  StableHlo.after ([hostOps0 (F := F)]).flatten (fun b => m (c, b)) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output buffer -/

abbrev rEmbBlock : Rect S128x128 := Rect.unit (s := S128x128) ![0, 0] S128x128.size inb_S128x128_S128x128_0_0
abbrev rEmbAll : Rect S8192x128 := Rect.unit (s := S8192x128) ![0, 0] S8192x128.size inb_S8192x128_S8192x128_0_0
abbrev rCol : Rect S128x1 := Rect.unit (s := S128x1) ![0, 0] S128x1.size inb_S128x1_S128x1_0_0
abbrev rRow : Rect S1x8192 := Rect.unit (s := S1x8192) ![0, 0] S1x8192.size inb_S1x8192_S1x8192_0_0

/-- The 128 row values the body stores, from the four input blocks at grid coordinates i: the body's arithmetic
    (the payloads of the generated skeleton) of the blocks read whole. -/
def rowsOf (i : grid0.Coords) (x0 : Vec F S128x128 .f32) (x1 : Vec F S8192x128 .f32) (x2 : Vec F S128x1 .i32) (x3 : Vec F S1x8192 .i32) :
    FVec F S128x1 .f32 :=
  k0_pay1 (k0_pay3 i (View.ld x2 rCol) (View.ld x3 rRow)) (k0_pay4 i (View.ld x0 rEmbBlock) (View.ld x1 rEmbAll))
    (k0_pay5 i (View.ld x2 rCol) (View.ld x3 rRow))

/-- The output buffer after the body: its one store, which covers it. -/
def outBlock (i : grid0.Coords) (x0 : Vec F S128x128 .f32) (x1 : Vec F S8192x128 .f32) (x2 : Vec F S128x1 .i32) (x3 : Vec F S1x8192 .i32) :
    Vec F S128x1 .f32 :=
  View.canon [⟨rCol, rowsOf i x0 x1 x2 x3⟩]

/-- The one store covers the output block. -/
theorem cover_out (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 4000000 in
/-- The body on whole staging memrefs, the inputs' at contents x0 … x3 and the output's at anything, runs to the
    continuation holding the inputs as they were and the output at outBlock of the inputs. -/
theorem sound_kernel (c : Dev nD) (E : Set ℕ) (i : grid0.Coords)
    (arg1 : Memref sig .tc .vmem S128x128 .f32) (harg1 : arg1.IsWhole) (arg2 : Memref sig .tc .vmem S8192x128 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole)
    (x0 : Vec F S128x128 .f32) (x1 : Vec F S8192x128 .f32) (x2 : Vec F S128x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock i x0 x1 x2 x3)) -∗ K ⟨⟩))
      ⊢ wp frame (wpE (defs₀ (F := F)) Variants.none c none) E (cc0__sup_con_kernel i arg1 harg1 arg2 harg2 arg3 harg3 arg4 harg4 arg5 harg5) K := by
  simp only [cc0__sup_con_kernel_eq_skeleton]; unfold cc0__sup_con_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core c: the arrays as the region finds them; after the body at point t each input buffer at its
    block and the output buffer at outBlock of the four input blocks; the invariant is the scoped buffers the pipeline does not
    stage, untouched; nothing owed. The embeddings array is held half by window 0 and half by window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (grid0.coords t) (iblk m c 0 t) (iblk m c 1 t) (iblk m c 2 t) (iblk m c 3 t) := by
  dsimp only [dats]

/-- Each input buffer holds its block when the body runs, fetched at that point or not: an unfetched window's block
    index has not moved, and the body left the block in place. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-! ## The body obligation -/

/-- The body at any point: the input buffers hold their blocks, so the body's triple applies; the invariant and what
    the core owes pass through unread. -/
theorem body_obligation (c : Dev nD) : BodyObligation (dats (F := F) m 0 c) (defs₀ (F := F)) Variants.none () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)))
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  unfold bodyAt0
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Kernel.Body

end
-- ==== Proof.BitsVals.lean ====
/-
  A core's buffer contents at three moments of the program: when the kernel region is entered (the launch memory after the
  two reshapes of the labels), when it is left (the same, but for the region's result array, which holds what the
  pipeline's 64 write-backs left there), and at the end (after the five last host operations).
-/
import proofs.«176397_j5600637354498_1_alg».proof.Proof.BitsBody
import Idealize.ShloMosaic.Lib.StableHlo.Run

noncomputable section

namespace Cert.Kernel.Body

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core c's buffers when the region is entered, as a valuation. -/
def entryVal (c : Dev nD) : Valuation τ sig (Elt F) :=
  StableHlo.after ([hostOps0 (F := F)]).flatten (fun b => m (c, b))

theorem V_eq_entryVal (c : Dev nD) (b : Ref sig .tc) : V m c b = entryVal m c (Proc.devRef .tc b) := rfl

/-- Core c's buffers when the region is left: the result array at what the pipeline wrote back, the rest as at entry. -/
def exitVal (c : Dev nD) : Valuation τ sig (Elt F) :=
  (StableHlo.nullary main_v2 ((dats m 0 c).arrAt 4 cfg0.N)).result (entryVal m c)

theorem exitVal_result (c : Dev nD) : exitVal m c (Proc.devRef .tc main_v2) = (dats m 0 c).arrAt 4 cfg0.N :=
  StableHlo.nullary_result main_v2 _ _ _

theorem exitVal_of_ne (c : Dev nD) {r : Ref sig .tc} (h : r ≠ main_v2) :
    exitVal m c (Proc.devRef .tc r) = entryVal m c (Proc.devRef .tc r) :=
  StableHlo.nullary_result_ne main_v2 _ _ _ h

/-- Core c's buffers at the end of the program. -/
def finalVal (c : Dev nD) : Valuation τ sig (Elt F) :=
  StableHlo.after ([hostOps1 (F := F)]).flatten (exitVal m c)

end Cert.Kernel.Body

end
-- ==== Proof.BitsRun.lean ====
/-
  The run of the whole program: two host operations reshape the labels, the kernel region runs over its 64 grid points,
  and five host operations reduce the region's 8192 x 1 result to one number.

  The launch rule for one region with host operations after it is applied directly, because two windows of the region
  read one array (the embeddings): the array's full share is dealt to them as its two halves when the region is
  entered, and the operations after the region run on the region's result and on buffers no window stages, so they
  never need the halves joined again. The run's post names every array after the region and every buffer the last
  operations wrote.
-/
import proofs.«176397_j5600637354498_1_alg».proof.Proof.BitsVals

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region, and what follows it -/

/-- The program is the two reshapes, the region, then the five last operations: it reduces to the region continued by
    those five, entered at the contents after the reshapes. -/
theorem hmain : Pipeline.HMainK (Ix := Unit) (Name := ℕ) (U := UR sig nD τ) (Lvl := ℕ) cfgs 0 defs₀ Variants.none m (main (F := F))
    (V m) (fun _ => Pipeline.chain ([hostOps1 (F := F)].map StableHlo.seq)) :=
  Pipeline.hmain_around cfgs 0 defs₀ Variants.none m main [hostOps0] [hostOps1] hostOps0_sub ⟨rfl, rfl⟩
    (fun c => (main_chain c).trans rfl)

/-! ## The embeddings array dealt to its two windows -/

/-- The windows' arrays at contents G, one by one: the embeddings array twice, at its two halves, then the labels as a
    column, the labels as a row, and the result, each whole. -/
theorem arrays_eq_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- The arrays at entry are the region-entry contents. -/
theorem arrAt_zero (c : Dev nD) (w : Fin cfg0.W) : (dats m 0 c).arrAt w 0 = V m c (Pipeline.arrRef spec0 w) :=
  A_eq m c w

/-- The four buffers behind the five windows, each whole, make the windows' arrays at entry: the embeddings array's
    full share is its left half and its right half, one for each of its two windows. -/
theorem hsplit (c : Dev nD) :
    (Pipeline.arrBufs spec0 c (V m c) : sProp 𝕄) ⊢ (dats m 0 c).arrays ((dats m 0 c).arrAt · 0) := by
  have hs : ((((c : Thread nD τ).loc main_arg0) ↦{fullShare} V m c main_arg0) : sProp 𝕄)
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  rw [arrays_eq_chain, arrAt_zero, arrAt_zero, arrAt_zero, arrAt_zero, arrAt_zero]
  unfold Pipeline.arrBufs
  rw [bigSep_eq_bigSepL_of_eq [main_arg0, main_v0, main_v1, main_v2] (by decide) (by decide)]
  show iprop((((c : Thread nD τ).loc main_arg0) ↦{fullShare} V m c main_arg0) ∗ (((c : Thread nD τ).loc main_v0) ↦{fullShare} V m c main_v0)
      ∗ (((c : Thread nD τ).loc main_v1) ↦{fullShare} V m c main_v1) ∗ (((c : Thread nD τ).loc main_v2) ↦{fullShare} V m c main_v2)) ⊢ _
  iintro ⟨Ha, H0, H1, H2⟩
  ihave Hs := hs $$ Ha
  icases Hs with ⟨Hl, Hr⟩
  isplitl [Hl]; · iexact Hl
  isplitl [Hr]; · iexact Hr
  isplitl [H0]; · iexact H0
  isplitl [H1]; · iexact H1
  iexact H2

/-! ## The five last operations -/

/-- The buffers the last operations touch: the region's result and five scalars. None is the embeddings array, so the
    two halves of that array stay with their windows. -/
def tailL : List (Ref sig .tc) := [main_v2, main_cst, main_v3, main_cst_0, main_v4, main_v5]
def tailSet : Finset (DevRef τ sig) := tailL.toFinset.map ⟨Proc.devRef (sig := sig) .tc, Proc.devRef_injective _⟩

theorem mem_tailSet {r : Ref sig .tc} (h : r ∈ tailL) : Proc.devRef (τ := τ) .tc r ∈ tailSet :=
  Finset.mem_map_of_mem _ (List.mem_toFinset.mpr h)

/-- Those six buffers held at a valuation, one by one. -/
theorem held_tail (c : Dev nD) (W : Valuation τ sig (Elt F)) :
    (StableHlo.held (c : Thread nD τ) tailSet W : sProp 𝕄)
      = iprop((((c : Thread nD τ).loc main_v2) ↦{fullShare} W (Proc.devRef .tc main_v2)) ∗ (((c : Thread nD τ).loc main_cst) ↦{fullShare} W (Proc.devRef .tc main_cst))
          ∗ (((c : Thread nD τ).loc main_v3) ↦{fullShare} W (Proc.devRef .tc main_v3)) ∗ (((c : Thread nD τ).loc main_cst_0) ↦{fullShare} W (Proc.devRef .tc main_cst_0))
          ∗ (((c : Thread nD τ).loc main_v4) ↦{fullShare} W (Proc.devRef .tc main_v4)) ∗ (((c : Thread nD τ).loc main_v5) ↦{fullShare} W (Proc.devRef .tc main_v5))) := by
  unfold StableHlo.held tailSet
  rw [bigSep_map, bigSep_eq_bigSepL tailL (by decide)]
  rfl

/-- Every one of the five operations reads and writes within those six buffers, -/
theorem tail_sub : ∀ ops ∈ [hostOps1 (F := F)], ∀ op ∈ ops, op.bufs ⊆ tailSet := by
  intro ops hops op hop
  rw [List.mem_singleton] at hops; subst hops
  simp only [List.mem_cons, List.mem_nil_iff, or_false] at hop
  rcases hop with rfl | rfl | rfl | rfl | rfl
  · intro b hb; rw [StableHlo.nullary_bufs, Finset.mem_singleton] at hb; subst hb; exact mem_tailSet (by decide)
  · intro b hb; rw [StableHlo.binary_bufs] at hb; simp only [Finset.mem_insert, Finset.mem_singleton] at hb
    rcases hb with rfl | rfl | rfl <;> exact mem_tailSet (by decide)
  · intro b hb; rw [StableHlo.nullary_bufs, Finset.mem_singleton] at hb; subst hb; exact mem_tailSet (by decide)
  · intro b hb; rw [StableHlo.binary_bufs] at hb; simp only [Finset.mem_insert, Finset.mem_singleton] at hb
    rcases hb with rfl | rfl | rfl <;> exact mem_tailSet (by decide)
  · intro b hb; rw [StableHlo.unary_bufs] at hb; simp only [Finset.mem_insert, Finset.mem_singleton] at hb
    rcases hb with rfl | rfl <;> exact mem_tailSet (by decide)

/-- and none allocates. -/
theorem tail_fresh : ∀ ops ∈ [hostOps1 (F := F)], ∀ op ∈ ops, op.fresh = ∅ := by
  intro ops hops op hop
  rw [List.mem_singleton] at hops; subst hops
  (repeat (cases hop with | head => rfl | tail _ hop => ?_)); exact nomatch hop

/-- The last operations do not write the region's result: at the end it holds what the region left. -/
theorem finalVal_result (c : Dev nD) : finalVal m c (Proc.devRef .tc main_v2) = (dats m 0 c).arrAt 4 cfg0.N := by
  unfold finalVal
  rw [StableHlo.after_of_forall_not_mem _ _ fun op hop => ?_, exitVal_result]
  simp only [List.flatten_cons, List.flatten_nil, List.append_nil, List.mem_cons, List.mem_nil_iff, or_false] at hop
  rcases hop with rfl | rfl | rfl | rfl | rfl <;>
    simp only [StableHlo.unary_writes, StableHlo.binary_writes, StableHlo.nullary_writes, Finset.mem_singleton] <;>
    exact StableHlo.devRef_ne_of_ne (by decide)

/-- What the last operations leave of the buffers no window stages: the labels untouched, the five scalars at their
    final values. -/
def restAfter (c : Dev nD) : sProp 𝕄 :=
  iprop((((c : Thread nD τ).loc main_arg1) ↦{fullShare} V m c main_arg1) ∗ (((c : Thread nD τ).loc main_cst) ↦{fullShare} finalVal m c (Proc.devRef .tc main_cst))
    ∗ (((c : Thread nD τ).loc main_v3) ↦{fullShare} finalVal m c (Proc.devRef .tc main_v3)) ∗ (((c : Thread nD τ).loc main_cst_0) ↦{fullShare} finalVal m c (Proc.devRef .tc main_cst_0))
    ∗ (((c : Thread nD τ).loc main_v4) ↦{fullShare} finalVal m c (Proc.devRef .tc main_v4)) ∗ (((c : Thread nD τ).loc main_v5) ↦{fullShare} finalVal m c (Proc.devRef .tc main_v5)))

/-- The region's result and the five scalars, as the region leaves them, are the six buffers held at the exit valuation. -/
theorem tail_pack (c : Dev nD) :
    iprop((((c : Thread nD τ).loc main_v2) ↦{fullShare} (dats m 0 c).arrAt 4 cfg0.N) ∗ (((c : Thread nD τ).loc main_cst) ↦{fullShare} V m c main_cst)
        ∗ (((c : Thread nD τ).loc main_v3) ↦{fullShare} V m c main_v3) ∗ (((c : Thread nD τ).loc main_cst_0) ↦{fullShare} V m c main_cst_0)
        ∗ (((c : Thread nD τ).loc main_v4) ↦{fullShare} V m c main_v4) ∗ (((c : Thread nD τ).loc main_v5) ↦{fullShare} V m c main_v5))
      ⊢ (StableHlo.held (c : Thread nD τ) tailSet (exitVal m c) : sProp 𝕄) := by
  rw [held_tail, exitVal_result, exitVal_of_ne m c (r := main_cst) (by decide), exitVal_of_ne m c (r := main_v3) (by decide),
    exitVal_of_ne m c (r := main_cst_0) (by decide), exitVal_of_ne m c (r := main_v4) (by decide), exitVal_of_ne m c (r := main_v5) (by decide),
    ← V_eq_entryVal, ← V_eq_entryVal, ← V_eq_entryVal, ← V_eq_entryVal, ← V_eq_entryVal]

/-- After the five operations the six buffers hold the final valuation; the region's result is still what the region left. -/
theorem tail_unpack (c : Dev nD) :
    (StableHlo.held (c : Thread nD τ) tailSet (StableHlo.after ([hostOps1 (F := F)]).flatten (exitVal m c)) : sProp 𝕄)
      ⊢ iprop((((c : Thread nD τ).loc main_v2) ↦{fullShare} (dats m 0 c).arrAt 4 cfg0.N) ∗ (((c : Thread nD τ).loc main_cst) ↦{fullShare} finalVal m c (Proc.devRef .tc main_cst))
        ∗ (((c : Thread nD τ).loc main_v3) ↦{fullShare} finalVal m c (Proc.devRef .tc main_v3)) ∗ (((c : Thread nD τ).loc main_cst_0) ↦{fullShare} finalVal m c (Proc.devRef .tc main_cst_0))
        ∗ (((c : Thread nD τ).loc main_v4) ↦{fullShare} finalVal m c (Proc.devRef .tc main_v4)) ∗ (((c : Thread nD τ).loc main_v5) ↦{fullShare} finalVal m c (Proc.devRef .tc main_v5))) := by
  rw [show StableHlo.after ([hostOps1 (F := F)]).flatten (exitVal m c) = finalVal m c from rfl, held_tail, finalVal_result]

/-- THE LAST OPERATIONS, from the region's exit: they run within the result and the five scalars, and hand back every
    array as the region left it and the rest at its final contents. -/
theorem htail (c : Dev nD) (Q' : PUnit → sProp 𝕄) :
    iprop((iprop((dats m 0 c).arrays ((dats m 0 c).arrAt · cfg0.N) ∗ restAfter m c) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c : Thread nD τ) none) Set.univ
          (Pipeline.chain ([hostOps1 (F := F)].map StableHlo.seq)) Q' := by
  rw [Pipeline.unscopedRestP_none, unscopedRest0_eq, arrays_eq_chain, ← List.append_nil ([hostOps1 (F := F)].map StableHlo.seq)]
  unfold restAfter
  iintro ⟨Hk, Hb, ⟨A0, A1, A2, A3, A4⟩, ⟨R1, Rc, R3, Rc0, R4, R5⟩⟩
  ihave Hh := (tail_pack m c) $$ [A4 Rc R3 Rc0 R4 R5]
  · isplitl [A4]; · iexact A4
    isplitl [Rc]; · iexact Rc
    isplitl [R3]; · iexact R3
    isplitl [Rc0]; · iexact Rc0
    isplitl [R4]; · iexact R4
    iexact R5
  iapply (Pipeline.wp_seqs_then (pcfgs (F := F)) defs₀ Variants.none c tailSet [] [hostOps1 (F := F)] tail_sub tail_fresh (exitVal m c)) $$ [Hb Hh]
  · isplitl [Hb]; · iexact Hb
    iexact Hh
  iintro ⟨Hb, Hh⟩
  rw [Pipeline.chain_nil, wp_pure]
  imodintro
  iapply Hk
  ihave Hh' := (tail_unpack m c) $$ Hh
  icases Hh' with ⟨A4, Rc, R3, Rc0, R4, R5⟩
  isplitl [A0 A1 A2 A3 A4]
  · isplitl [A0]; · iexact A0
    isplitl [A1]; · iexact A1
    isplitl [A2]; · iexact A2
    isplitl [A3]; · iexact A3
    iexact A4
  isplitl [R1]; · iexact R1
  isplitl [Rc]; · iexact Rc
  isplitl [R3]; · iexact R3
  isplitl [Rc0]; · iexact Rc0
  isplitl [R4]; · iexact R4
  iexact R5

/-! ## The readings at the end, and the launch -/

/-- Read against a final state, what the last operations left says what the memory holds at the labels and at the result. -/
theorem hY (c : Dev nD) (s' : Phys nD τ sig (Elt F)) :
    iprop((iprop(emp) : sProp 𝕄) ∗ restAfter m c ∗ SI s')
      ⊢ |={Set.univ}=> iprop(⌜s'.mem.mem ((c : Thread nD τ).loc main_arg1) = V m c main_arg1
          ∧ s'.mem.mem ((c : Thread nD τ).loc main_v5) = finalVal m c (Proc.devRef .tc main_v5)⌝ ∗ SI s') := by
  unfold restAfter
  iintro ⟨-, ⟨R1, -, -, -, -, R5⟩, HSI⟩
  icombine HSI R1 gives %h1
  icombine HSI R5 gives %h5
  imodintro
  isplitr; · ipureintro; exact ⟨Buf.eq_of_forall_mem_univ h1, Buf.eq_of_forall_mem_univ h5⟩
  iexact HSI

/-- No table is prefetched. -/
abbrev adm : (p : Fin 1) → (pcfgs (F := F) p).Adm := fun p => (cfgs p).toPCfg_adm

set_option backward.isDefEq.respectTransparency.types false in
/-- At the compiled mesh, from any memory with every semaphore at zero: every weakly fair execution of the program
    terminates without a fault, and in every final state each window's array holds what the pipeline computes, the
    labels are as the region found them, and the result is the last operations' value of the region's output. -/
theorem run_main : θ_run defs (onTc (τ := τ) (main (F := F))) ⟨m, fun _ => 0, ρ⟩ (fun r => ∀ c : Dev nD,
      (∀ w : Fin cfg0.W, r.2.mem ((cfg0.win w).arr.view.loc (c : Thread nD τ)) = (dats m 0 c).arrAt w cfg0.N)
      ∧ r.2.mem ((c : Thread nD τ).loc main_arg1) = V m c main_arg1
      ∧ r.2.mem ((c : Thread nD τ).loc main_v5) = finalVal m c (Proc.devRef .tc main_v5)) :=
  Pipeline.θ_run_region_noSem_pf_tail (pcfgs (F := F)) adm (dats m) () cellOf_inj 0 winFacts₀0 (Pipeline.PreFacts.none _) emb₁ defs₀ Variants.none
    m ρ main (fun _ => Pipeline.chain ([hostOps1 (F := F)].map StableHlo.seq))
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m) (hsplit := hsplit m) (hpf := fun _ k => k.elim0)
    (X := fun _ => iprop(emp)) (Y := fun _ => iprop(emp))
    (Z := fun c => Pipeline.unscopedRestP (Ix := Unit) (Name := ℕ) (U := UR sig nD τ) (Lvl := ℕ) Pipeline.Prefetch.none spec0 c (V m c))
    (Z' := restAfter m)
    (hX := fun c => by iintro H; isplitr; · iempintro
                       iexact H)
    (hin := fun c => by
      rw [show (dats m 0 c).Φ 0 = Pipeline.scopedRest spec0 c from rfl]
      iintro ⟨-, -, HR⟩; iexact HR)
    (hout := fun c => by
      rw [show (dats m 0 c).Φ (Fin.last (Pipeline.pin (pcfgs (F := F)) adm 0).N) = Pipeline.scopedRest spec0 c from rfl]
      iintro HR; isplitr; · iempintro
      iexact HR)
    (htail := htail m)
    (QY := fun c s => s.mem ((c : Thread nD τ).loc main_arg1) = V m c main_arg1
      ∧ s.mem ((c : Thread nD τ).loc main_v5) = finalVal m c (Proc.devRef .tc main_v5))
    (hY := hY m)
    (hQ := fun s h c => ⟨(h c).1, (h c).2.2⟩)

/-- info: 'Cert.Kernel.Run.run_main' depends on axioms: [propext, Classical.choice, Quot.sound] -/
#guard_msgs in #print axioms run_main

end Cert.Kernel.Run

end
-- ==== Proof.BitsFrame.lean ====
/-
  The program's run leaves its two arguments as launched.

  The run's statement names every window's array after the region and the labels at the end. The embeddings are
  window 0's array, and an input window's array after the region is its contents when the region was entered; no host
  operation before the region writes the embeddings or the labels (the two reshapes write their own results), so both
  are the launch contents.
-/
import proofs.«176397_j5600637354498_1_alg».proof.Proof.BitsRun
import Idealize.ShloMosaic.Lib.Pipeline.Value
import Idealize.ShloMosaic.Lib.StableHlo.Run

noncomputable section

namespace Cert.Kernel.Run

open Cert.Kernel Cert.Kernel.Gen Cert.Kernel.Body
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- No host operation before the region writes the embeddings. -/
theorem V_arg0 (c : Dev nD) : V m c main_arg0 = m ((c : Thread nD τ).loc main_arg0) := by
  show StableHlo.after hostOps0 (fun b => m (c, b)) (Proc.devRef .tc main_arg0) = _
  after_results

/-- No host operation before the region writes the labels. -/
theorem V_arg1 (c : Dev nD) : V m c main_arg1 = m ((c : Thread nD τ).loc main_arg1) := by
  show StableHlo.after hostOps0 (fun b => m (c, b)) (Proc.devRef .tc main_arg1) = _
  after_results

/-- From the run with every window's array named: the arguments end as launched. -/
theorem frame_of_run
    (hrun : θ_run defs (onTc (τ := τ) (main (F := F))) ⟨m, fun _ => 0, ρ⟩ (fun r => ∀ c : Dev nD,
      (∀ w : Fin cfg0.W, r.2.mem ((cfg0.win w).arr.view.loc (c : Thread nD τ)) = (dats m 0 c).arrAt w cfg0.N)
      ∧ r.2.mem ((c : Thread nD τ).loc main_arg1) = V m c main_arg1
      ∧ r.2.mem ((c : Thread nD τ).loc main_v5) = finalVal m c (Proc.devRef .tc main_v5))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).1 0).trans (((dats m 0 c).arrAt_in 0 rfl _).trans ((A_eq m c 0).trans (V_arg0 m c))),
        (h c).2.1.trans (V_arg1 m c)⟩)
    hrun

/-- The program runs and leaves its two arguments as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (run_main m ρ)

end Cert.Kernel.Run

end
-- ==== Proof.IdealBody.lean ====
/-
  The kernel's body at one grid point, and the data the pipeline rule asks about it.

  The grid has 64 points; point t works on rows 128 t … 128 t + 127. It is handed five staging buffers: the block of
  128 rows of the embeddings, the whole embeddings array (a second window on the same array), the 128 labels of its
  rows as a column, all labels as a row, and the 128 x 1 output block. The body loads the four inputs whole, computes
  one value per row, and overwrites the whole output block with them; it leaves the inputs as it found them. So after
  the body the output buffer holds one pure function of the four input blocks and of the point, and each input buffer
  still holds its block of the array as the region found it.

  The embeddings array is read through two windows at once, so neither can hold it outright: window 0 holds one half
  of it and window 1 the other half, and both halves say the same contents.
-/
import proofs.«176397_j5600637354498_1_alg».proof.Proof.Gen.KernelIdeal.Launch
import proofs.«176397_j5600637354498_1_alg».proof.Proof.Gen.KernelIdeal.Skeleton
import proofs.«176397_j5600637354498_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core c's buffers when the region is entered: the launch contents after the two reshapes of the labels. -/
def V (c : Dev nD) (b : Ref sig .tc) : Buf (Elt F) ((c : Thread nD τ).loc b) :=
  StableHlo.after ([hostOps0 (F := F)]).flatten (fun b => m (c, b)) b

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output buffer -/

abbrev rEmbBlock : Rect S128x128 := Rect.unit (s := S128x128) ![0, 0] S128x128.size inb_S128x128_S128x128_0_0
abbrev rEmbAll : Rect S8192x128 := Rect.unit (s := S8192x128) ![0, 0] S8192x128.size inb_S8192x128_S8192x128_0_0
abbrev rCol : Rect S128x1 := Rect.unit (s := S128x1) ![0, 0] S128x1.size inb_S128x1_S128x1_0_0
abbrev rRow : Rect S1x8192 := Rect.unit (s := S1x8192) ![0, 0] S1x8192.size inb_S1x8192_S1x8192_0_0

/-- The 128 row values the body stores, from the four input blocks at grid coordinates i: the body's arithmetic
    (the payloads of the generated skeleton) of the blocks read whole. -/
def rowsOf (i : grid0.Coords) (x0 : Vec F S128x128 .f32) (x1 : Vec F S8192x128 .f32) (x2 : Vec F S128x1 .i32) (x3 : Vec F S1x8192 .i32) :
    FVec F S128x1 .f32 :=
  k0_pay1 (k0_pay3 i (View.ld x2 rCol) (View.ld x3 rRow)) (k0_pay4 i (View.ld x0 rEmbBlock) (View.ld x1 rEmbAll))
    (k0_pay5 i (View.ld x2 rCol) (View.ld x3 rRow))

/-- The output buffer after the body: its one store, which covers it. -/
def outBlock (i : grid0.Coords) (x0 : Vec F S128x128 .f32) (x1 : Vec F S8192x128 .f32) (x2 : Vec F S128x1 .i32) (x3 : Vec F S1x8192 .i32) :
    Vec F S128x1 .f32 :=
  View.canon [⟨rCol, rowsOf i x0 x1 x2 x3⟩]

/-- The one store covers the output block. -/
theorem cover_out (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 4000000 in
/-- The body on whole staging memrefs, the inputs' at contents x0 … x3 and the output's at anything, runs to the
    continuation holding the inputs as they were and the output at outBlock of the inputs. -/
theorem sound_kernel (c : Dev nD) (E : Set ℕ) (i : grid0.Coords)
    (arg1 : Memref sig .tc .vmem S128x128 .f32) (harg1 : arg1.IsWhole) (arg2 : Memref sig .tc .vmem S8192x128 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x1 .f32) (harg5 : arg5.IsWhole)
    (x0 : Vec F S128x128 .f32) (x1 : Vec F S8192x128 .f32) (x2 : Vec F S128x1 .i32) (x3 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock i x0 x1 x2 x3)) -∗ K ⟨⟩))
      ⊢ wp frame (wpE (defs₀ (F := F)) Variants.none c none) E (cc0__sup_con_kernel i arg1 harg1 arg2 harg2 arg3 harg3 arg4 harg4 arg5 harg5) K := by
  simp only [cc0__sup_con_kernel_eq_skeleton]; unfold cc0__sup_con_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core c: the arrays as the region finds them; after the body at point t each input buffer at its
    block and the output buffer at outBlock of the four input blocks; the invariant is the scoped buffers the pipeline does not
    stage, untouched; nothing owed. The embeddings array is held half by window 0 and half by window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (grid0.coords t) (iblk m c 0 t) (iblk m c 1 t) (iblk m c 2 t) (iblk m c 3 t) := by
  dsimp only [dats]

/-- Each input buffer holds its block when the body runs, fetched at that point or not: an unfetched window's block
    index has not moved, and the body left the block in place. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-! ## The body obligation -/

/-- The body at any point: the input buffers hold their blocks, so the body's triple applies; the invariant and what
    the core owes pass through unread. -/
theorem body_obligation (c : Dev nD) : BodyObligation (dats (F := F) m 0 c) (defs₀ (F := F)) Variants.none () Set.univ := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)))
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  unfold bodyAt0
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Body

end
-- ==== Proof.IdealVals.lean ====
/-
  A core's buffer contents at three moments of the program: when the kernel region is entered (the launch memory after the
  two reshapes of the labels), when it is left (the same, but for the region's result array, which holds what the
  pipeline's 64 write-backs left there), and at the end (after the five last host operations).
-/
import proofs.«176397_j5600637354498_1_alg».proof.Proof.IdealBody
import Idealize.ShloMosaic.Lib.StableHlo.Run

noncomputable section

namespace Cert.KernelIdeal.Body

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- Core c's buffers when the region is entered, as a valuation. -/
def entryVal (c : Dev nD) : Valuation τ sig (Elt F) :=
  StableHlo.after ([hostOps0 (F := F)]).flatten (fun b => m (c, b))

theorem V_eq_entryVal (c : Dev nD) (b : Ref sig .tc) : V m c b = entryVal m c (Proc.devRef .tc b) := rfl

/-- Core c's buffers when the region is left: the result array at what the pipeline wrote back, the rest as at entry. -/
def exitVal (c : Dev nD) : Valuation τ sig (Elt F) :=
  (StableHlo.nullary main_v2 ((dats m 0 c).arrAt 4 cfg0.N)).result (entryVal m c)

theorem exitVal_result (c : Dev nD) : exitVal m c (Proc.devRef .tc main_v2) = (dats m 0 c).arrAt 4 cfg0.N :=
  StableHlo.nullary_result main_v2 _ _ _

theorem exitVal_of_ne (c : Dev nD) {r : Ref sig .tc} (h : r ≠ main_v2) :
    exitVal m c (Proc.devRef .tc r) = entryVal m c (Proc.devRef .tc r) :=
  StableHlo.nullary_result_ne main_v2 _ _ _ h

/-- Core c's buffers at the end of the program. -/
def finalVal (c : Dev nD) : Valuation τ sig (Elt F) :=
  StableHlo.after ([hostOps1 (F := F)]).flatten (exitVal m c)

end Cert.KernelIdeal.Body

end
-- ==== Proof.IdealRun.lean ====
/-
  The run of the whole program: two host operations reshape the labels, the kernel region runs over its 64 grid points,
  and five host operations reduce the region's 8192 x 1 result to one number.

  The launch rule for one region with host operations after it is applied directly, because two windows of the region
  read one array (the embeddings): the array's full share is dealt to them as its two halves when the region is
  entered, and the operations after the region run on the region's result and on buffers no window stages, so they
  never need the halves joined again. The run's post names every array after the region and every buffer the last
  operations wrote.
-/
import proofs.«176397_j5600637354498_1_alg».proof.Proof.IdealVals

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region, and what follows it -/

/-- The program is the two reshapes, the region, then the five last operations: it reduces to the region continued by
    those five, entered at the contents after the reshapes. -/
theorem hmain : Pipeline.HMainK (Ix := Unit) (Name := ℕ) (U := UR sig nD τ) (Lvl := ℕ) cfgs 0 defs₀ Variants.none m (main (F := F))
    (V m) (fun _ => Pipeline.chain ([hostOps1 (F := F)].map StableHlo.seq)) :=
  Pipeline.hmain_around cfgs 0 defs₀ Variants.none m main [hostOps0] [hostOps1] hostOps0_sub ⟨rfl, rfl⟩
    (fun c => (main_chain c).trans rfl)

/-! ## The embeddings array dealt to its two windows -/

/-- The windows' arrays at contents G, one by one: the embeddings array twice, at its two halves, then the labels as a
    column, the labels as a row, and the result, each whole. -/
theorem arrays_eq_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- The arrays at entry are the region-entry contents. -/
theorem arrAt_zero (c : Dev nD) (w : Fin cfg0.W) : (dats m 0 c).arrAt w 0 = V m c (Pipeline.arrRef spec0 w) :=
  A_eq m c w

/-- The four buffers behind the five windows, each whole, make the windows' arrays at entry: the embeddings array's
    full share is its left half and its right half, one for each of its two windows. -/
theorem hsplit (c : Dev nD) :
    (Pipeline.arrBufs spec0 c (V m c) : sProp 𝕄) ⊢ (dats m 0 c).arrays ((dats m 0 c).arrAt · 0) := by
  have hs : ((((c : Thread nD τ).loc main_arg0) ↦{fullShare} V m c main_arg0) : sProp 𝕄)
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  rw [arrays_eq_chain, arrAt_zero, arrAt_zero, arrAt_zero, arrAt_zero, arrAt_zero]
  unfold Pipeline.arrBufs
  rw [bigSep_eq_bigSepL_of_eq [main_arg0, main_v0, main_v1, main_v2] (by decide) (by decide)]
  show iprop((((c : Thread nD τ).loc main_arg0) ↦{fullShare} V m c main_arg0) ∗ (((c : Thread nD τ).loc main_v0) ↦{fullShare} V m c main_v0)
      ∗ (((c : Thread nD τ).loc main_v1) ↦{fullShare} V m c main_v1) ∗ (((c : Thread nD τ).loc main_v2) ↦{fullShare} V m c main_v2)) ⊢ _
  iintro ⟨Ha, H0, H1, H2⟩
  ihave Hs := hs $$ Ha
  icases Hs with ⟨Hl, Hr⟩
  isplitl [Hl]; · iexact Hl
  isplitl [Hr]; · iexact Hr
  isplitl [H0]; · iexact H0
  isplitl [H1]; · iexact H1
  iexact H2

/-! ## The five last operations -/

/-- The buffers the last operations touch: the region's result and five scalars. None is the embeddings array, so the
    two halves of that array stay with their windows. -/
def tailL : List (Ref sig .tc) := [main_v2, main_cst, main_v3, main_cst_0, main_v4, main_v5]
def tailSet : Finset (DevRef τ sig) := tailL.toFinset.map ⟨Proc.devRef (sig := sig) .tc, Proc.devRef_injective _⟩

theorem mem_tailSet {r : Ref sig .tc} (h : r ∈ tailL) : Proc.devRef (τ := τ) .tc r ∈ tailSet :=
  Finset.mem_map_of_mem _ (List.mem_toFinset.mpr h)

/-- Those six buffers held at a valuation, one by one. -/
theorem held_tail (c : Dev nD) (W : Valuation τ sig (Elt F)) :
    (StableHlo.held (c : Thread nD τ) tailSet W : sProp 𝕄)
      = iprop((((c : Thread nD τ).loc main_v2) ↦{fullShare} W (Proc.devRef .tc main_v2)) ∗ (((c : Thread nD τ).loc main_cst) ↦{fullShare} W (Proc.devRef .tc main_cst))
          ∗ (((c : Thread nD τ).loc main_v3) ↦{fullShare} W (Proc.devRef .tc main_v3)) ∗ (((c : Thread nD τ).loc main_cst_0) ↦{fullShare} W (Proc.devRef .tc main_cst_0))
          ∗ (((c : Thread nD τ).loc main_v4) ↦{fullShare} W (Proc.devRef .tc main_v4)) ∗ (((c : Thread nD τ).loc main_v5) ↦{fullShare} W (Proc.devRef .tc main_v5))) := by
  unfold StableHlo.held tailSet
  rw [bigSep_map, bigSep_eq_bigSepL tailL (by decide)]
  rfl

/-- Every one of the five operations reads and writes within those six buffers, -/
theorem tail_sub : ∀ ops ∈ [hostOps1 (F := F)], ∀ op ∈ ops, op.bufs ⊆ tailSet := by
  intro ops hops op hop
  rw [List.mem_singleton] at hops; subst hops
  simp only [List.mem_cons, List.mem_nil_iff, or_false] at hop
  rcases hop with rfl | rfl | rfl | rfl | rfl
  · intro b hb; rw [StableHlo.nullary_bufs, Finset.mem_singleton] at hb; subst hb; exact mem_tailSet (by decide)
  · intro b hb; rw [StableHlo.binary_bufs] at hb; simp only [Finset.mem_insert, Finset.mem_singleton] at hb
    rcases hb with rfl | rfl | rfl <;> exact mem_tailSet (by decide)
  · intro b hb; rw [StableHlo.nullary_bufs, Finset.mem_singleton] at hb; subst hb; exact mem_tailSet (by decide)
  · intro b hb; rw [StableHlo.binary_bufs] at hb; simp only [Finset.mem_insert, Finset.mem_singleton] at hb
    rcases hb with rfl | rfl | rfl <;> exact mem_tailSet (by decide)
  · intro b hb; rw [StableHlo.unary_bufs] at hb; simp only [Finset.mem_insert, Finset.mem_singleton] at hb
    rcases hb with rfl | rfl <;> exact mem_tailSet (by decide)

/-- and none allocates. -/
theorem tail_fresh : ∀ ops ∈ [hostOps1 (F := F)], ∀ op ∈ ops, op.fresh = ∅ := by
  intro ops hops op hop
  rw [List.mem_singleton] at hops; subst hops
  (repeat (cases hop with | head => rfl | tail _ hop => ?_)); exact nomatch hop

/-- The last operations do not write the region's result: at the end it holds what the region left. -/
theorem finalVal_result (c : Dev nD) : finalVal m c (Proc.devRef .tc main_v2) = (dats m 0 c).arrAt 4 cfg0.N := by
  unfold finalVal
  rw [StableHlo.after_of_forall_not_mem _ _ fun op hop => ?_, exitVal_result]
  simp only [List.flatten_cons, List.flatten_nil, List.append_nil, List.mem_cons, List.mem_nil_iff, or_false] at hop
  rcases hop with rfl | rfl | rfl | rfl | rfl <;>
    simp only [StableHlo.unary_writes, StableHlo.binary_writes, StableHlo.nullary_writes, Finset.mem_singleton] <;>
    exact StableHlo.devRef_ne_of_ne (by decide)

/-- What the last operations leave of the buffers no window stages: the labels untouched, the five scalars at their
    final values. -/
def restAfter (c : Dev nD) : sProp 𝕄 :=
  iprop((((c : Thread nD τ).loc main_arg1) ↦{fullShare} V m c main_arg1) ∗ (((c : Thread nD τ).loc main_cst) ↦{fullShare} finalVal m c (Proc.devRef .tc main_cst))
    ∗ (((c : Thread nD τ).loc main_v3) ↦{fullShare} finalVal m c (Proc.devRef .tc main_v3)) ∗ (((c : Thread nD τ).loc main_cst_0) ↦{fullShare} finalVal m c (Proc.devRef .tc main_cst_0))
    ∗ (((c : Thread nD τ).loc main_v4) ↦{fullShare} finalVal m c (Proc.devRef .tc main_v4)) ∗ (((c : Thread nD τ).loc main_v5) ↦{fullShare} finalVal m c (Proc.devRef .tc main_v5)))

/-- The region's result and the five scalars, as the region leaves them, are the six buffers held at the exit valuation. -/
theorem tail_pack (c : Dev nD) :
    iprop((((c : Thread nD τ).loc main_v2) ↦{fullShare} (dats m 0 c).arrAt 4 cfg0.N) ∗ (((c : Thread nD τ).loc main_cst) ↦{fullShare} V m c main_cst)
        ∗ (((c : Thread nD τ).loc main_v3) ↦{fullShare} V m c main_v3) ∗ (((c : Thread nD τ).loc main_cst_0) ↦{fullShare} V m c main_cst_0)
        ∗ (((c : Thread nD τ).loc main_v4) ↦{fullShare} V m c main_v4) ∗ (((c : Thread nD τ).loc main_v5) ↦{fullShare} V m c main_v5))
      ⊢ (StableHlo.held (c : Thread nD τ) tailSet (exitVal m c) : sProp 𝕄) := by
  rw [held_tail, exitVal_result, exitVal_of_ne m c (r := main_cst) (by decide), exitVal_of_ne m c (r := main_v3) (by decide),
    exitVal_of_ne m c (r := main_cst_0) (by decide), exitVal_of_ne m c (r := main_v4) (by decide), exitVal_of_ne m c (r := main_v5) (by decide),
    ← V_eq_entryVal, ← V_eq_entryVal, ← V_eq_entryVal, ← V_eq_entryVal, ← V_eq_entryVal]

/-- After the five operations the six buffers hold the final valuation; the region's result is still what the region left. -/
theorem tail_unpack (c : Dev nD) :
    (StableHlo.held (c : Thread nD τ) tailSet (StableHlo.after ([hostOps1 (F := F)]).flatten (exitVal m c)) : sProp 𝕄)
      ⊢ iprop((((c : Thread nD τ).loc main_v2) ↦{fullShare} (dats m 0 c).arrAt 4 cfg0.N) ∗ (((c : Thread nD τ).loc main_cst) ↦{fullShare} finalVal m c (Proc.devRef .tc main_cst))
        ∗ (((c : Thread nD τ).loc main_v3) ↦{fullShare} finalVal m c (Proc.devRef .tc main_v3)) ∗ (((c : Thread nD τ).loc main_cst_0) ↦{fullShare} finalVal m c (Proc.devRef .tc main_cst_0))
        ∗ (((c : Thread nD τ).loc main_v4) ↦{fullShare} finalVal m c (Proc.devRef .tc main_v4)) ∗ (((c : Thread nD τ).loc main_v5) ↦{fullShare} finalVal m c (Proc.devRef .tc main_v5))) := by
  rw [show StableHlo.after ([hostOps1 (F := F)]).flatten (exitVal m c) = finalVal m c from rfl, held_tail, finalVal_result]

/-- THE LAST OPERATIONS, from the region's exit: they run within the result and the five scalars, and hand back every
    array as the region left it and the rest at its final contents. -/
theorem htail (c : Dev nD) (Q' : PUnit → sProp 𝕄) :
    iprop((iprop((dats m 0 c).arrays ((dats m 0 c).arrAt · cfg0.N) ∗ restAfter m c) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c : Thread nD τ) none) Set.univ
          (Pipeline.chain ([hostOps1 (F := F)].map StableHlo.seq)) Q' := by
  rw [Pipeline.unscopedRestP_none, unscopedRest0_eq, arrays_eq_chain, ← List.append_nil ([hostOps1 (F := F)].map StableHlo.seq)]
  unfold restAfter
  iintro ⟨Hk, Hb, ⟨A0, A1, A2, A3, A4⟩, ⟨R1, Rc, R3, Rc0, R4, R5⟩⟩
  ihave Hh := (tail_pack m c) $$ [A4 Rc R3 Rc0 R4 R5]
  · isplitl [A4]; · iexact A4
    isplitl [Rc]; · iexact Rc
    isplitl [R3]; · iexact R3
    isplitl [Rc0]; · iexact Rc0
    isplitl [R4]; · iexact R4
    iexact R5
  iapply (Pipeline.wp_seqs_then (pcfgs (F := F)) defs₀ Variants.none c tailSet [] [hostOps1 (F := F)] tail_sub tail_fresh (exitVal m c)) $$ [Hb Hh]
  · isplitl [Hb]; · iexact Hb
    iexact Hh
  iintro ⟨Hb, Hh⟩
  rw [Pipeline.chain_nil, wp_pure]
  imodintro
  iapply Hk
  ihave Hh' := (tail_unpack m c) $$ Hh
  icases Hh' with ⟨A4, Rc, R3, Rc0, R4, R5⟩
  isplitl [A0 A1 A2 A3 A4]
  · isplitl [A0]; · iexact A0
    isplitl [A1]; · iexact A1
    isplitl [A2]; · iexact A2
    isplitl [A3]; · iexact A3
    iexact A4
  isplitl [R1]; · iexact R1
  isplitl [Rc]; · iexact Rc
  isplitl [R3]; · iexact R3
  isplitl [Rc0]; · iexact Rc0
  isplitl [R4]; · iexact R4
  iexact R5

/-! ## The readings at the end, and the launch -/

/-- Read against a final state, what the last operations left says what the memory holds at the labels and at the result. -/
theorem hY (c : Dev nD) (s' : Phys nD τ sig (Elt F)) :
    iprop((iprop(emp) : sProp 𝕄) ∗ restAfter m c ∗ SI s')
      ⊢ |={Set.univ}=> iprop(⌜s'.mem.mem ((c : Thread nD τ).loc main_arg1) = V m c main_arg1
          ∧ s'.mem.mem ((c : Thread nD τ).loc main_v5) = finalVal m c (Proc.devRef .tc main_v5)⌝ ∗ SI s') := by
  unfold restAfter
  iintro ⟨-, ⟨R1, -, -, -, -, R5⟩, HSI⟩
  icombine HSI R1 gives %h1
  icombine HSI R5 gives %h5
  imodintro
  isplitr; · ipureintro; exact ⟨Buf.eq_of_forall_mem_univ h1, Buf.eq_of_forall_mem_univ h5⟩
  iexact HSI

/-- No table is prefetched. -/
abbrev adm : (p : Fin 1) → (pcfgs (F := F) p).Adm := fun p => (cfgs p).toPCfg_adm

set_option backward.isDefEq.respectTransparency.types false in
/-- At the compiled mesh, from any memory with every semaphore at zero: every weakly fair execution of the program
    terminates without a fault, and in every final state each window's array holds what the pipeline computes, the
    labels are as the region found them, and the result is the last operations' value of the region's output. -/
theorem run_main : θ_run defs (onTc (τ := τ) (main (F := F))) ⟨m, fun _ => 0, ρ⟩ (fun r => ∀ c : Dev nD,
      (∀ w : Fin cfg0.W, r.2.mem ((cfg0.win w).arr.view.loc (c : Thread nD τ)) = (dats m 0 c).arrAt w cfg0.N)
      ∧ r.2.mem ((c : Thread nD τ).loc main_arg1) = V m c main_arg1
      ∧ r.2.mem ((c : Thread nD τ).loc main_v5) = finalVal m c (Proc.devRef .tc main_v5)) :=
  Pipeline.θ_run_region_noSem_pf_tail (pcfgs (F := F)) adm (dats m) () cellOf_inj 0 winFacts₀0 (Pipeline.PreFacts.none _) emb₁ defs₀ Variants.none
    m ρ main (fun _ => Pipeline.chain ([hostOps1 (F := F)].map StableHlo.seq))
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m) (hsplit := hsplit m) (hpf := fun _ k => k.elim0)
    (X := fun _ => iprop(emp)) (Y := fun _ => iprop(emp))
    (Z := fun c => Pipeline.unscopedRestP (Ix := Unit) (Name := ℕ) (U := UR sig nD τ) (Lvl := ℕ) Pipeline.Prefetch.none spec0 c (V m c))
    (Z' := restAfter m)
    (hX := fun c => by iintro H; isplitr; · iempintro
                       iexact H)
    (hin := fun c => by
      rw [show (dats m 0 c).Φ 0 = Pipeline.scopedRest spec0 c from rfl]
      iintro ⟨-, -, HR⟩; iexact HR)
    (hout := fun c => by
      rw [show (dats m 0 c).Φ (Fin.last (Pipeline.pin (pcfgs (F := F)) adm 0).N) = Pipeline.scopedRest spec0 c from rfl]
      iintro HR; isplitr; · iempintro
      iexact HR)
    (htail := htail m)
    (QY := fun c s => s.mem ((c : Thread nD τ).loc main_arg1) = V m c main_arg1
      ∧ s.mem ((c : Thread nD τ).loc main_v5) = finalVal m c (Proc.devRef .tc main_v5))
    (hY := hY m)
    (hQ := fun s h c => ⟨(h c).1, (h c).2.2⟩)

/-- info: 'Cert.KernelIdeal.Run.run_main' depends on axioms: [propext, Classical.choice, Quot.sound] -/
#guard_msgs in #print axioms run_main

end Cert.KernelIdeal.Run

end
-- ==== Proof.IdealFrame.lean ====
/-
  The program's run leaves its two arguments as launched.

  The run's statement names every window's array after the region and the labels at the end. The embeddings are
  window 0's array, and an input window's array after the region is its contents when the region was entered; no host
  operation before the region writes the embeddings or the labels (the two reshapes write their own results), so both
  are the launch contents.
-/
import proofs.«176397_j5600637354498_1_alg».proof.Proof.IdealRun
import Idealize.ShloMosaic.Lib.Pipeline.Value
import Idealize.ShloMosaic.Lib.StableHlo.Run

noncomputable section

namespace Cert.KernelIdeal.Run

open Cert.KernelIdeal Cert.KernelIdeal.Gen Cert.KernelIdeal.Body
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- No host operation before the region writes the embeddings. -/
theorem V_arg0 (c : Dev nD) : V m c main_arg0 = m ((c : Thread nD τ).loc main_arg0) := by
  show StableHlo.after hostOps0 (fun b => m (c, b)) (Proc.devRef .tc main_arg0) = _
  after_results

/-- No host operation before the region writes the labels. -/
theorem V_arg1 (c : Dev nD) : V m c main_arg1 = m ((c : Thread nD τ).loc main_arg1) := by
  show StableHlo.after hostOps0 (fun b => m (c, b)) (Proc.devRef .tc main_arg1) = _
  after_results

/-- From the run with every window's array named: the arguments end as launched. -/
theorem frame_of_run
    (hrun : θ_run defs (onTc (τ := τ) (main (F := F))) ⟨m, fun _ => 0, ρ⟩ (fun r => ∀ c : Dev nD,
      (∀ w : Fin cfg0.W, r.2.mem ((cfg0.win w).arr.view.loc (c : Thread nD τ)) = (dats m 0 c).arrAt w cfg0.N)
      ∧ r.2.mem ((c : Thread nD τ).loc main_arg1) = V m c main_arg1
      ∧ r.2.mem ((c : Thread nD τ).loc main_v5) = finalVal m c (Proc.devRef .tc main_v5))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).1 0).trans (((dats m 0 c).arrAt_in 0 rfl _).trans ((A_eq m c 0).trans (V_arg0 m c))),
        (h c).2.1.trans (V_arg1 m c)⟩)
    hrun

/-- The program runs and leaves its two arguments as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (run_main m ρ)

end Cert.KernelIdeal.Run

end
-- ==== Proof.Loss.lean ====
/-
  The supervised contrastive loss of 8192 embeddings of width 128 with integer labels, as ONE function of the two
  arrays, over the extended reals.

  For a row p and a column c: the similarity is the inner product of rows p and c divided by the temperature;
  the logit is the similarity less the row's maximum; the positives of p are the columns with p's label, p itself
  excluded; the denominator sums the exponentials of the logits over the columns other than p; the log-probability
  is the logit less the logarithm of the denominator plus a small constant; the row's value is the sum of the
  log-probabilities over its positives divided by their count, the count taken at least one. The loss is minus the mean
  of the rows' values. The float constants are kept as the words both programs print; only their equality matters.
-/
import Idealize.ShloMosaic.PureOps.Ideal
import Idealize.ShloMosaic.Lib.ValueIdx

open scoped BigOperators

noncomputable section

namespace Cert.SupCon

open Idealize.ShloMosaic Idealize.ShloMosaic.ValueIdx

/-- The embeddings' shape and the labels' shape. -/
abbrev SEmb : Shape := ⟨2, ![8192, 128]⟩
abbrev SLab : Shape := ⟨1, ![8192]⟩

/-- The temperature 0.07, the stabiliser 1e-8, one, minus infinity and the row count 8192, as the f32 words printed. -/
abbrev temp : EReal := Ideal.ofBits .f32 0x3D8F5C29#32
abbrev eps : EReal := Ideal.ofBits .f32 0x322BCC77#32
abbrev one : EReal := Ideal.ofBits .f32 0x3F800000#32
abbrev negInf : EReal := Ideal.ofBits .f32 0xFF800000#32
abbrev rows : EReal := Ideal.ofBits .f32 0x46000000#32

/-- One on a true proposition, zero on a false one. -/
def ind (b : Prop) [Decidable b] : EReal := if b then 1 else 0

variable (E : SEmb.Idx → EReal) (L : SLab.Idx → BitVec 32)

/-- The similarity of rows p and c: their inner product over the temperature. -/
def sim (p c : Fin 8192) : EReal := Ideal.div (∑ k : Fin 128, E (ix2 p k) * E (ix2 c k)) temp

/-- The largest similarity of row p. -/
def rowMax (p : Fin 8192) : EReal := (Finset.univ : Finset (Fin 8192)).fold max negInf (fun c => sim E p c)

/-- The similarity shifted by the row's maximum. -/
def logit (p c : Fin 8192) : EReal := sim E p c - rowMax E p

/-- The diagonal. -/
def eye (p c : Fin 8192) : EReal := ind (p = c)

/-- The positives of p: the same label, p itself excluded. -/
def posMask (p c : Fin 8192) : EReal := ind (L (ix1 p) = L (ix1 c)) - eye p c

/-- The sum of the exponentials of row p's logits over the columns other than p. -/
def denom (p : Fin 8192) : EReal := ∑ c : Fin 8192, Ideal.exp (logit E p c) * (one - eye p c)

/-- The log-probability of column c in row p. -/
def logProb (p c : Fin 8192) : EReal := logit E p c - Ideal.log (denom E p + eps)

/-- The number of positives of p, at least one. -/
def maskSum (p : Fin 8192) : EReal := max one (∑ c : Fin 8192, posMask L p c)

/-- Row p's value: the mean log-probability of its positives. -/
def meanLogProb (p : Fin 8192) : EReal :=
  Ideal.div (∑ c : Fin 8192, posMask L p c * logProb E p c) (maskSum L p)

/-- The loss: minus the mean of the rows' values. -/
def loss : EReal := -(Ideal.div (∑ p : Fin 8192, meanLogProb E L p) rows)

end Cert.SupCon

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.RowEye.lean ====
/-
  The diagonal of a block of rows. Block i holds the rows i * 128 + r, r below 128, of the 8192 rows; its diagonal
  entry at (r, c) compares the 32-bit words of i * 128 + r and of c. Both numbers are below 8192, so the words agree
  exactly when the numbers do, and the entry is one when row i * 128 + r is column c and zero otherwise.
-/
import proofs.«176397_j5600637354498_1_alg».proof.Proof.Gen.KernelIdeal.Skeleton
import proofs.«176397_j5600637354498_1_alg».proof.Proof.Loss
import Idealize.ShloMosaic.Lib.Pipeline.Value

open scoped BigOperators

noncomputable section

namespace Cert.KernelIdeal.RowValue

open Cert.KernelIdeal Cert.KernelIdeal.Gen Idealize.ShloMosaic Idealize.ShloMosaic.ValueIdx

/-- The array row that local row r of the block at grid point i is. -/
def grow (i : grid0.Coords) (r : Fin 128) : Fin 8192 :=
  ⟨(i 0).val * 128 + r.val, by have h1 : (i 0).val < 64 := (i 0).isLt; have h2 := r.isLt; omega⟩

/-- Below 8192 the 32-bit words of a * 128 + r and of c agree exactly when the numbers do. -/
theorem word_eq_iff (a r c : Nat) (ha : a < 64) (hr : r < 128) (hc : c < 8192) :
    (BitVec.ofNat 32 a * 128#32 + BitVec.ofNat 32 r = BitVec.ofNat 32 c) ↔ a * 128 + r = c := by
  constructor
  · intro h
    have := congrArg BitVec.toNat h
    simp only [BitVec.toNat_add, BitVec.toNat_mul, BitVec.toNat_ofNat] at this
    omega
  · intro h
    apply BitVec.eq_of_toNat_eq
    simp only [BitVec.toNat_add, BitVec.toNat_mul, BitVec.toNat_ofNat]
    omega

/-- A one-bit word widened to 32 bits and read as a signed integer is one or zero. -/
theorem bit_value (b : Bool) :
    (FloatOps.sitofp (F := Ideal) .f32 ((BitVec.ofBool b).setWidth 32) : EReal) = if b then 1 else 0 := by
  cases b
  · show (((BitVec.setWidth 32 (BitVec.ofBool false)).toInt : ℝ) : EReal) = _
    simp
  · show (((BitVec.setWidth 32 (BitVec.ofBool true)).toInt : ℝ) : EReal) = _
    simp

/-- The block's diagonal at (r, c) is the diagonal of the whole array at (i * 128 + r, c). -/
theorem pay2_apply (i : grid0.Coords) (r : Fin 128) (c : Fin 8192) :
    k0_pay2 (F := Ideal) i (ix2 r c) = Cert.SupCon.eye (grow i r) c := by
  unfold k0_pay2
  show FloatOps.sitofp (F := Ideal) .f32 ((IntOp.cmpi .eq (IntOp.addi (Scalar.muli (BitVec.ofNat 32 (i 0).val) 128#32)
      (iota .tc S128x8192 32 [0] Facts₀.iota_S128x8192_d0_w32 (ix2 r c))) (iota .tc S128x8192 32 [1] Facts₀.iota_S128x8192_d1_w32 (ix2 r c))).setWidth 32) = _
  rw [iota_single_apply, iota_single_apply]
  show FloatOps.sitofp (F := Ideal) .f32 ((BitVec.ofBool
      (BitVec.ofNat 32 (i 0).val * 128#32 + BitVec.ofNat 32 r.val == BitVec.ofNat 32 c.val)).setWidth 32) = _
  rw [bit_value]
  unfold Cert.SupCon.eye Cert.SupCon.ind
  have hiff := word_eq_iff (i 0).val r.val c.val (i 0).isLt r.isLt c.isLt
  by_cases h : grow i r = c
  · rw [if_pos h, if_pos]
    rw [beq_iff_eq]
    exact hiff.mpr (congrArg Fin.val h)
  · rw [if_neg h, if_neg]
    rw [beq_iff_eq]
    intro h'
    exact h (Fin.ext (hiff.mp h'))

end Cert.KernelIdeal.RowValue
-- ==== Proof.RowMask.lean ====
/-
  The positives of a block's rows and their count. At (r, c) the block's mask compares the label of row i * 128 + r
  with the label of column c and subtracts the diagonal: that is the positive mask of the whole array at
  (i * 128 + r, c). The count of a row is the sum of its mask over the 8192 columns, taken at least one.
-/
import proofs.«176397_j5600637354498_1_alg».proof.Proof.Gen.KernelIdeal.Skeleton
import proofs.«176397_j5600637354498_1_alg».proof.Proof.Loss
import proofs.«176397_j5600637354498_1_alg».proof.Proof.LibLayout3
import proofs.«176397_j5600637354498_1_alg».proof.Proof.RowEye
import Idealize.ShloMosaic.Lib.Pipeline.Value
import Idealize.ShloMosaic.Lib.ValueLayout
import Idealize.ShloMosaic.PureOps.Ideal.Laws

open scoped BigOperators

noncomputable section

namespace Cert.KernelIdeal.RowValue

open Cert.KernelIdeal Cert.KernelIdeal.Gen Idealize.ShloMosaic Idealize.ShloMosaic.ValueIdx

/-- The one-or-zero value of a decision that holds exactly when a proposition does is that proposition's indicator. -/
theorem bool_ind (p : Prop) [Decidable p] (b : Bool) (h : b = true ↔ p) :
    (if b then (1 : EReal) else 0) = Cert.SupCon.ind p := by
  unfold Cert.SupCon.ind
  by_cases hp : p
  · rw [if_pos hp, if_pos (h.mpr hp)]
  · rw [if_neg hp, if_neg (fun hb => hp (h.mp hb))]

/-- The block's mask at (r, c) is the positive mask of the whole array at (i * 128 + r, c). -/
theorem pay3_apply (i : grid0.Coords) (L : Cert.SupCon.SLab.Idx → BitVec 32)
    (x2 : Vec Ideal S128x1 .i32) (x3 : Vec Ideal S1x8192 .i32)
    (h2 : ∀ r : Fin 128, x2 (ix2 r (0 : Fin 1)) = L (ix1 (grow i r)))
    (h3 : ∀ c : Fin 8192, x3 (ix2 (0 : Fin 1) c) = L (ix1 c))
    (r : Fin 128) (c : Fin 8192) :
    k0_pay3 (F := Ideal) i x2 x3 (ix2 r c) = Cert.SupCon.posMask L (grow i r) c := by
  unfold k0_pay3
  show FloatOps.sitofp (F := Ideal) .f32 ((IntOp.cmpi .eq
      (broadcastTo S128x8192 (shapeCast S128x1 x2 Facts₀.shapeCasts_S128x1_S128x1) Facts₀.broadcasts_S128x1_S128x8192 (ix2 r c))
      (broadcastTo S128x8192 (shapeCast S1x8192 x3 Facts₀.shapeCasts_S1x8192_S1x8192) Facts₀.broadcasts_S1x8192_S128x8192 (ix2 r c))).setWidth 32)
      - k0_pay2 (F := Ideal) i (ix2 r c) = _
  rw [shapeCast_self, shapeCast_self, Cert.LibLayout3.broadcastTo_a1_ab_apply, broadcastTo_1b_ab_apply, pay2_apply, h2, h3]
  show FloatOps.sitofp (F := Ideal) .f32 ((BitVec.ofBool (L (ix1 (grow i r)) == L (ix1 c))).setWidth 32) - _ = _
  rw [bit_value, bool_ind (L (ix1 (grow i r)) = L (ix1 c)) _ beq_iff_eq]
  rfl

/-- The block's count at row r is the number of positives of row i * 128 + r, at least one. -/
theorem pay5_apply (i : grid0.Coords) (L : Cert.SupCon.SLab.Idx → BitVec 32)
    (x2 : Vec Ideal S128x1 .i32) (x3 : Vec Ideal S1x8192 .i32)
    (h2 : ∀ r : Fin 128, x2 (ix2 r (0 : Fin 1)) = L (ix1 (grow i r)))
    (h3 : ∀ c : Fin 8192, x3 (ix2 (0 : Fin 1) c) = L (ix1 c))
    (r : Fin 128) :
    k0_pay5 (F := Ideal) i x2 x3 (ix2 r (0 : Fin 1)) = Cert.SupCon.maskSum L (grow i r) := by
  unfold k0_pay5
  show max (Ideal.ofBits .f32 0x3F800000#32) (shapeCast S128x1 (multiReduction (F := Ideal) .add [1] S128 (k0_pay3 (F := Ideal) i x2 x3) 0x00000000#32
      Facts₀.reduces_S128x8192_S128 (.inl rfl) rfl) Facts₀.shapeCasts_S128_S128x1 (ix2 r (0 : Fin 1))) = _
  rw [Cert.LibLayout3.shapeCast_a_a1_apply, Cert.LibLayout3.sum_ab_last]
  exact congrArg (max Cert.SupCon.one) (Finset.sum_congr rfl fun c _ => pay3_apply i L x2 x3 h2 h3 r c)

end Cert.KernelIdeal.RowValue
-- ==== Proof.RowSim.lean ====
/-
  The block's product. The block of rows i * 128 + r is multiplied with all 8192 rows, both operands contracted along
  their second axis into a zero accumulator: the entry at (r, c) is the inner product, over the 128 coordinates, of the
  block's row r and the array's row c.
-/
import proofs.«176397_j5600637354498_1_alg».proof.Proof.Gen.KernelIdeal.Skeleton
import proofs.«176397_j5600637354498_1_alg».proof.Proof.Loss
import proofs.«176397_j5600637354498_1_alg».proof.Proof.LibLayout3
import proofs.«176397_j5600637354498_1_alg».proof.Proof.RowEye
import Idealize.ShloMosaic.Lib.Pipeline.Value
import Idealize.ShloMosaic.Lib.ValueLayout
import Idealize.ShloMosaic.PureOps.Ideal.Laws

open scoped BigOperators

noncomputable section

namespace Cert.KernelIdeal.RowValue

open Cert.KernelIdeal Cert.KernelIdeal.Gen Idealize.ShloMosaic Idealize.ShloMosaic.ValueIdx

/-- The dimension numbers of the block's product: both operands contract their second axis. -/
abbrev dotD : DotDims S128x128 S8192x128 S128x8192 := dot_S128x128_S8192x128_S128x8192_1_1_0_0_n_n

/-- The left operand is read at the output's row … -/
theorem lhs_0 (j : S128x8192.Idx) (q : dotD.contr.Idx) : (dotD.lhsIdx j q 0).val = (j 0).val := by
  unfold DotDims.lhsIdx
  rw [dif_neg (show ¬(0 : Fin S128x128.rank) ∈ dotD.lhsBatch by decide), dif_pos (show (0 : Fin S128x128.rank) ∈ dotD.lhsNonContracting by decide)]
  rfl
/-- … and the contraction coordinate; -/
theorem lhs_1 (j : S128x8192.Idx) (q : dotD.contr.Idx) : (dotD.lhsIdx j q 1).val = (q ⟨0, by decide⟩).val :=
  dotD.lhsIdx_val_of_single rfl j q
/-- the right operand at the output's column … -/
theorem rhs_0 (j : S128x8192.Idx) (q : dotD.contr.Idx) : (dotD.rhsIdx j q 0).val = (j 1).val := by
  unfold DotDims.rhsIdx
  rw [dif_neg (show ¬(0 : Fin S8192x128.rank) ∈ dotD.rhsBatch by decide), dif_pos (show (0 : Fin S8192x128.rank) ∈ dotD.rhsNonContracting by decide)]
  rfl
/-- … and the contraction coordinate. -/
theorem rhs_1 (j : S128x8192.Idx) (q : dotD.contr.Idx) : (dotD.rhsIdx j q 1).val = (q ⟨0, by decide⟩).val :=
  dotD.rhsIdx_val_of_single rfl j q

/-- The block's product at (r, c) is the inner product of the block's row r and the array's row c. -/
theorem matmul_rc (x0 : FVec Ideal S128x128 .f32) (x1 : FVec Ideal S8192x128 .f32) (r : Fin 128) (c : Fin 8192) :
    matmul (F := Ideal) dotD none x0 x1 (constant (F := Ideal) S128x8192 .f32 0x00000000#32) (ix2 r c)
      = ∑ k : Fin 128, x0 (ix2 r k) * x1 (ix2 c k) := by
  simp only [matmul]
  rw [Ideal.matmul_constant_zero_apply, ← Equiv.sum_comp (contrEquiv1 dotD 128 rfl rfl).symm]
  refine Finset.sum_congr rfl fun k _ => ?_
  have hk := contrEquiv1_symm_val dotD 128 rfl rfl k
  have el : dotD.lhsIdx (ix2 r c) ((contrEquiv1 dotD 128 rfl rfl).symm k) = ix2 r k := funext fun a => Fin.ext (by
    match a with
    | ⟨0, _⟩ => exact lhs_0 _ _
    | ⟨1, _⟩ => exact (lhs_1 _ _).trans hk)
  have er : dotD.rhsIdx (ix2 r c) ((contrEquiv1 dotD 128 rfl rfl).symm k) = ix2 c k := funext fun a => Fin.ext (by
    match a with
    | ⟨0, _⟩ => exact rhs_0 _ _
    | ⟨1, _⟩ => exact (rhs_1 _ _).trans hk)
  rw [el, er]

end Cert.KernelIdeal.RowValue
-- ==== Proof.RowLogProb.lean ====
/-
  The block's log-probabilities. The similarities are the block's product over the temperature; a row's maximum is the
  fold of max over its 8192 columns from minus infinity; the logits are the similarities less their row's maximum; a
  row's denominator sums the exponentials of its logits off the diagonal; and the log-probability is the logit less the
  logarithm of the denominator plus the stabiliser. Each is the whole array's quantity at row i * 128 + r.
-/
import proofs.«176397_j5600637354498_1_alg».proof.Proof.Gen.KernelIdeal.Skeleton
import proofs.«176397_j5600637354498_1_alg».proof.Proof.Loss
import proofs.«176397_j5600637354498_1_alg».proof.Proof.LibLayout3
import proofs.«176397_j5600637354498_1_alg».proof.Proof.RowEye
import proofs.«176397_j5600637354498_1_alg».proof.Proof.RowSim
import Idealize.ShloMosaic.Lib.Pipeline.Value
import Idealize.ShloMosaic.Lib.ValueLayout
import Idealize.ShloMosaic.PureOps.Ideal.Laws

open scoped BigOperators

noncomputable section

namespace Cert.KernelIdeal.RowValue

open Cert.KernelIdeal Cert.KernelIdeal.Gen Idealize.ShloMosaic Idealize.ShloMosaic.ValueIdx

/-- The block's similarities: the product over the temperature. -/
def simB (x0 : FVec Ideal S128x128 .f32) (x1 : FVec Ideal S8192x128 .f32) : FVec Ideal S128x8192 .f32 :=
  divf (matmul (F := Ideal) dotD none x0 x1 (constant (F := Ideal) S128x8192 .f32 0x00000000#32))
    (broadcast S128x8192 (Scalar.ofBits (F := Ideal) .f32 0x3D8F5C29#32))

variable (i : grid0.Coords) (E : Cert.SupCon.SEmb.Idx → EReal)
    (x0 : FVec Ideal S128x128 .f32) (x1 : FVec Ideal S8192x128 .f32)
    (h0 : ∀ (r : Fin 128) (k : Fin 128), x0 (ix2 r k) = E (ix2 (grow i r) k))
    (h1 : ∀ (c : Fin 8192) (k : Fin 128), x1 (ix2 c k) = E (ix2 c k))

include h0 h1 in
theorem simB_apply (r : Fin 128) (c : Fin 8192) : simB x0 x1 (ix2 r c) = Cert.SupCon.sim E (grow i r) c := by
  unfold simB
  show Ideal.div (matmul (F := Ideal) dotD none x0 x1 (constant (F := Ideal) S128x8192 .f32 0x00000000#32) (ix2 r c))
    (Ideal.ofBits .f32 0x3D8F5C29#32) = _
  rw [matmul_rc]
  unfold Cert.SupCon.sim
  exact congrArg (fun s => Ideal.div s Cert.SupCon.temp) (Finset.sum_congr rfl fun k _ => by rw [h0, h1])

/-- The block's logits: the similarities less their row's maximum. -/
def logitB (x0 : FVec Ideal S128x128 .f32) (x1 : FVec Ideal S8192x128 .f32) : FVec Ideal S128x8192 .f32 :=
  subf (simB x0 x1) (broadcastTo S128x8192 (shapeCast S128x1
    (multiReduction (F := Ideal) .maximumf [1] S128 (simB x0 x1) 0xFF800000#32 Facts₀.reduces_S128x8192_S128 (.inl rfl) rfl)
    Facts₀.shapeCasts_S128_S128x1) Facts₀.broadcasts_S128x1_S128x8192)

include h0 h1 in
theorem logitB_apply (r : Fin 128) (c : Fin 8192) : logitB x0 x1 (ix2 r c) = Cert.SupCon.logit E (grow i r) c := by
  unfold logitB
  rw [subf_apply, Cert.LibLayout3.broadcastTo_a1_ab_apply, Cert.LibLayout3.shapeCast_a_a1_apply, Cert.LibLayout3.max_ab_last,
    simB_apply i E x0 x1 h0 h1]
  unfold Cert.SupCon.logit Cert.SupCon.rowMax
  exact congrArg (fun m => Cert.SupCon.sim E (grow i r) c - m)
    (Finset.fold_congr fun c' _ => simB_apply i E x0 x1 h0 h1 r c')

/-- The block's denominators: the row sums of the exponentials of the logits off the diagonal. -/
def denomB (i : grid0.Coords) (x0 : FVec Ideal S128x128 .f32) (x1 : FVec Ideal S8192x128 .f32) : FVec Ideal S128x1 .f32 :=
  shapeCast S128x1 (multiReduction (F := Ideal) .add [1] S128
    (mulf (exp (logitB x0 x1)) (subf (broadcast S128x8192 (Scalar.ofBits (F := Ideal) .f32 0x3F800000#32)) (k0_pay2 (F := Ideal) i)))
    0x00000000#32 Facts₀.reduces_S128x8192_S128 (.inl rfl) rfl) Facts₀.shapeCasts_S128_S128x1

include h0 h1 in
theorem denomB_apply (r : Fin 128) : denomB i x0 x1 (ix2 r (0 : Fin 1)) = Cert.SupCon.denom E (grow i r) := by
  unfold denomB
  rw [Cert.LibLayout3.shapeCast_a_a1_apply, Cert.LibLayout3.sum_ab_last]
  unfold Cert.SupCon.denom
  refine Finset.sum_congr rfl fun c _ => ?_
  show Ideal.exp (logitB x0 x1 (ix2 r c)) * (Ideal.ofBits .f32 0x3F800000#32 - k0_pay2 (F := Ideal) i (ix2 r c)) = _
  rw [logitB_apply i E x0 x1 h0 h1, pay2_apply]

/-- The block's log-probabilities are its logits less the logarithm of the denominator plus the stabiliser. -/
theorem pay4_eq : k0_pay4 (F := Ideal) i x0 x1 = subf (logitB x0 x1) (broadcastTo S128x8192
    (log (addf (denomB i x0 x1) (broadcast S128x1 (Scalar.ofBits (F := Ideal) .f32 0x322BCC77#32)))) Facts₀.broadcasts_S128x1_S128x8192) := rfl

include h0 h1 in
theorem pay4_apply (r : Fin 128) (c : Fin 8192) :
    k0_pay4 (F := Ideal) i x0 x1 (ix2 r c) = Cert.SupCon.logProb E (grow i r) c := by
  rw [pay4_eq, subf_apply, Cert.LibLayout3.broadcastTo_a1_ab_apply, logitB_apply i E x0 x1 h0 h1]
  show _ - Ideal.log (denomB i x0 x1 (ix2 r (0 : Fin 1)) + Ideal.ofBits .f32 0x322BCC77#32) = _
  rw [denomB_apply i E x0 x1 h0 h1]
  rfl

end Cert.KernelIdeal.RowValue
-- ==== Proof.RowValue.lean ====
/-
  A block's row values. The value of local row r of block i is the sum, over the 8192 columns, of the positive mask
  times the log-probability, divided by the count of positives taken at least one: the mean log-probability of the
  positives of row i * 128 + r of the whole array.
-/
import proofs.«176397_j5600637354498_1_alg».proof.Proof.Gen.KernelIdeal.Skeleton
import proofs.«176397_j5600637354498_1_alg».proof.Proof.Loss
import proofs.«176397_j5600637354498_1_alg».proof.Proof.LibLayout3
import proofs.«176397_j5600637354498_1_alg».proof.Proof.RowEye
import proofs.«176397_j5600637354498_1_alg».proof.Proof.RowMask
import proofs.«176397_j5600637354498_1_alg».proof.Proof.RowSim
import proofs.«176397_j5600637354498_1_alg».proof.Proof.RowLogProb
import Idealize.ShloMosaic.Lib.Pipeline.Value
import Idealize.ShloMosaic.Lib.ValueLayout
import Idealize.ShloMosaic.PureOps.Ideal.Laws

open scoped BigOperators

noncomputable section

namespace Cert.KernelIdeal.RowValue

open Cert.KernelIdeal Cert.KernelIdeal.Gen Idealize.ShloMosaic Idealize.ShloMosaic.ValueIdx

/-- The block's value at local row r is the whole array's row value at row i * 128 + r. -/
theorem payload_row (i : grid0.Coords) (E : Cert.SupCon.SEmb.Idx → EReal) (L : Cert.SupCon.SLab.Idx → BitVec 32)
    (x0 : Vec Ideal S128x128 .f32) (x1 : Vec Ideal S8192x128 .f32) (x2 : Vec Ideal S128x1 .i32) (x3 : Vec Ideal S1x8192 .i32)
    (h0 : ∀ (r : Fin 128) (k : Fin 128), x0 (ix2 r k) = E (ix2 (grow i r) k))
    (h1 : ∀ (c : Fin 8192) (k : Fin 128), x1 (ix2 c k) = E (ix2 c k))
    (h2 : ∀ r : Fin 128, x2 (ix2 r (0 : Fin 1)) = L (ix1 (grow i r)))
    (h3 : ∀ c : Fin 8192, x3 (ix2 (0 : Fin 1) c) = L (ix1 c))
    (r : Fin 128) :
    k0_pay1 (F := Ideal) (k0_pay3 i x2 x3) (k0_pay4 i x0 x1) (k0_pay5 i x2 x3) (ix2 r (0 : Fin 1)) = Cert.SupCon.meanLogProb E L (grow i r) := by
  unfold k0_pay1
  show Ideal.div (shapeCast S128x1 (multiReduction (F := Ideal) .add [1] S128
      (mulf (k0_pay3 (F := Ideal) i x2 x3) (k0_pay4 (F := Ideal) i x0 x1)) 0x00000000#32
      Facts₀.reduces_S128x8192_S128 (.inl rfl) rfl) Facts₀.shapeCasts_S128_S128x1 (ix2 r (0 : Fin 1)))
    (k0_pay5 (F := Ideal) i x2 x3 (ix2 r (0 : Fin 1))) = _
  rw [Cert.LibLayout3.shapeCast_a_a1_apply, Cert.LibLayout3.sum_ab_last, pay5_apply i L x2 x3 h2 h3]
  unfold Cert.SupCon.meanLogProb
  exact congrArg (fun s => Ideal.div s (Cert.SupCon.maskSum L (grow i r))) (Finset.sum_congr rfl fun c _ => by
    rw [mulf_apply, pay3_apply i L x2 x3 h2 h3, pay4_apply i E x0 x1 h0 h1])

end Cert.KernelIdeal.RowValue
-- ==== Proof.TailMean.lean ====
/-
  The mean over the rows. After the blocks have written the column of 8192 row values, the program sums the column
  from zero, divides by 8192 and negates: the result is minus the mean of the row values. The zero word is the
  extended real zero, and the sum over the column's index set is the sum over its 8192 rows.
-/
import proofs.«176397_j5600637354498_1_alg».proof.Proof.Gen.KernelIdeal.Launch
import proofs.«176397_j5600637354498_1_alg».proof.Proof.Loss
import Idealize.ShloMosaic.Lib.StableHlo.Run
import Idealize.ShloMosaic.PureOps.Ideal.Laws
import Idealize.ShloMosaic.Lib.ValueIdx

open scoped BigOperators

noncomputable section

namespace Cert.KernelIdeal.TailMean

open Cert.KernelIdeal Cert.KernelIdeal.Gen Idealize.ShloMosaic Idealize.ShloMosaic.ValueIdx Idealize.SL.Sem

/-- A sum over the index set of a column of n entries is the sum over its n rows. -/
theorem sum_col {n : Nat} (f : (⟨2, ![n, 1]⟩ : Shape).Idx → EReal) : ∑ j, f j = ∑ p : Fin n, f (ix2 p (0 : Fin 1)) := by
  rw [sum_idx2]
  exact Finset.sum_congr rfl fun p _ => Fin.sum_univ_one _

/-- Whatever the buffers hold before them, the last five operations leave minus the mean of the column of row values. -/
theorem tail_mean (W : Valuation τ sig (Elt Ideal)) :
    (StableHlo.after (hostOps1 (F := Ideal)) W (Proc.devRef .tc main_v5) : S_.Idx → EReal)
      = fun _ => -(Ideal.div (∑ p : Fin 8192, (W (Proc.devRef .tc main_v2) : S8192x1.Idx → EReal) (ix2 p (0 : Fin 1))) Cert.SupCon.rows) := by
  show StableHlo.after (hostOps1 (F := Ideal)) W (Proc.devRef .tc main_v5) = _
  after_results
  funext j
  show -(Ideal.div (Ideal.hostReduceAdd Facts₀.reducesTo_S8192x1_S_d0_1 (W (Proc.devRef .tc main_v2) : S8192x1.Idx → EReal)
      (Ideal.ofBits .f32 0x00000000#32) j) (Ideal.ofBits .f32 0x46000000#32)) = _
  rw [Ideal.hostReduceAdd_total _ (fun b => b.elim0), Ideal.ofBits_zero_f32, zero_add, sum_col]

/-- The same with the column's entries named. -/
theorem tail_mean_of (W : Valuation τ sig (Elt Ideal)) (g : Fin 8192 → EReal)
    (hg : ∀ p : Fin 8192, (W (Proc.devRef .tc main_v2) : S8192x1.Idx → EReal) (ix2 p (0 : Fin 1)) = g p) :
    (StableHlo.after (hostOps1 (F := Ideal)) W (Proc.devRef .tc main_v5) : S_.Idx → EReal)
      = fun _ => -(Ideal.div (∑ p : Fin 8192, g p) Cert.SupCon.rows) := by
  rw [tail_mean]
  exact funext fun _ => congrArg (fun s => -(Ideal.div s Cert.SupCon.rows)) (Finset.sum_congr rfl fun p _ => hg p)

end Cert.KernelIdeal.TailMean
-- ==== Proof.ArrBlocks.lean ====
/-
  The kernel's input blocks as coordinates of the arguments.

  The grid has 64 points; point t's row-block windows (the embeddings' rows, the labels as a column, the output) sit at
  block t along the rows, so local row r of such a block is row 128 t + r of its array; the two whole-array windows (all
  embeddings, all labels as a row) sit at block 0 at every point. The labels' column and row arrays are reshapes of the
  labels, so an entry of either is the label at the same row-major position. A block's coordinate along an axis is
  always (block index) x (block size) + 1 x (the coordinate inside the block).
-/
import proofs.«176397_j5600637354498_1_alg».proof.Proof.IdealBody
import Idealize.ShloMosaic.Lib.Pipeline.Value
import Idealize.ShloMosaic.Lib.ValueIdx

set_option maxRecDepth 16384

noncomputable section

namespace Cert.KernelIdeal.ArrRows

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-- A grid point's one coordinate is the point's number. -/
theorem coords_val : ∀ t : Fin cfg0.N, (grid0.coords t 0).val = t.val :=
  (by decide +kernel : ∀ t : Fin grid0.N, _)

/-- The windows' block indices over the grid: the row-block windows (the embeddings' rows, the labels' column, the
    output) sit at block t along the rows; the whole-array windows sit at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem hz : (![0, 0] : Fin 2 → Nat) = fun _ => 0 := funext fun a => by fin_cases a <;> rfl

/-! ## The arrays as the region finds them -/

/-- No host operation writes the embeddings before the region. -/
theorem V_arg0 (c : Dev nD) : V m c main_arg0 = m ((c : Thread nD τ).loc main_arg0) := by
  show StableHlo.after hostOps0 (fun b => m (c, b)) (Proc.devRef .tc main_arg0) = _
  after_results

/-- The labels' column is the labels reshaped. -/
theorem V_v0 (c : Dev nD) : (V m c main_v0 : S8192x1.Idx → BitVec 32)
    = shapeCast S8192x1 (m ((c : Thread nD τ).loc main_arg1) : S8192.Idx → BitVec 32) shapeCasts_S8192_S8192x1 := by
  show StableHlo.after hostOps0 (fun b => m (c, b)) (Proc.devRef .tc main_v0) = _
  after_results
  rfl

/-- The labels' row is the labels reshaped. -/
theorem V_v1 (c : Dev nD) : (V m c main_v1 : S1x8192.Idx → BitVec 32)
    = shapeCast S1x8192 (m ((c : Thread nD τ).loc main_arg1) : S8192.Idx → BitVec 32) shapeCasts_S8192_S1x8192 := by
  show StableHlo.after hostOps0 (fun b => m (c, b)) (Proc.devRef .tc main_v1) = _
  after_results
  rfl

/-! ## The input blocks read at coordinates -/

/-- Window 0's block at point t is rows 128 t … 128 t + 127 of the embeddings. -/
theorem blk0_apply (c : Dev nD) (t : Fin cfg0.N) (x : S128x128.Idx) (k : S8192x128.Idx)
    (hk0 : (k 0).val = t.val * 128 + (x 0).val) (hk1 : (k 1).val = (x 1).val) :
    (iblk m c 0 t : Vec F S128x128 .f32) x = (m ((c : Thread nD τ).loc main_arg0) : S8192x128.Idx → Elt F .f32) k := by
  obtain ⟨e0, e1, -⟩ := idx_facts t
  unfold iblk
  rw [View.read_apply]
  show V m c main_arg0 (((cfg0.win 0).blk t).view.emb x) = _
  rw [V_arg0]
  refine congrArg (m ((c : Thread nD τ).loc main_arg0) : S8192x128.Idx → Elt F .f32) (funext fun a => Fin.ext ?_)
  match a with
  | ⟨0, _⟩ => show win0_0.index t (0 : Fin 2) * 128 + 1 * (x 0).val = (k 0).val; omega
  | ⟨1, _⟩ => show win0_0.index t (1 : Fin 2) * 128 + 1 * (x 1).val = (k 1).val; omega

/-- Window 1's block at any point is the embeddings whole. -/
theorem blk1_apply (c : Dev nD) (t : Fin cfg0.N) (x : S8192x128.Idx) :
    (iblk m c 1 t : Vec F S8192x128 .f32) x = (m ((c : Thread nD τ).loc main_arg0) : S8192x128.Idx → Elt F .f32) x := by
  obtain ⟨-, -, e0, e1, -⟩ := idx_facts t
  unfold iblk
  rw [View.read_apply]
  show V m c main_arg0 (((cfg0.win 1).blk t).view.emb x) = _
  rw [V_arg0]
  refine congrArg (m ((c : Thread nD τ).loc main_arg0) : S8192x128.Idx → Elt F .f32) (funext fun a => Fin.ext ?_)
  match a with
  | ⟨0, _⟩ => show win0_1.index t (0 : Fin 2) * 8192 + 1 * (x 0).val = (x 0).val; omega
  | ⟨1, _⟩ => show win0_1.index t (1 : Fin 2) * 128 + 1 * (x 1).val = (x 1).val; omega

/-- Window 2's block at point t is labels 128 t … 128 t + 127, as a column. -/
theorem blk2_apply (c : Dev nD) (t : Fin cfg0.N) (x : S128x1.Idx) (k : S8192.Idx)
    (hk : (k 0).val = t.val * 128 + (x 0).val) :
    (iblk m c 2 t : Vec F S128x1 .i32) x = (m ((c : Thread nD τ).loc main_arg1) : S8192.Idx → BitVec 32) k := by
  obtain ⟨-, -, -, -, e0, e1, -⟩ := idx_facts t
  unfold iblk
  rw [View.read_apply]
  show (V m c main_v0 : S8192x1.Idx → BitVec 32) (((cfg0.win 2).blk t).view.emb x) = _
  rw [V_v0]
  refine shapeCast_apply _ _ _ k ?_
  rw [Shape.rowMajor_val_one, Shape.rowMajor_val_two]
  show (k 0).val = (win0_2.index t (0 : Fin 2) * 128 + 1 * (x 0).val) * 1 + (win0_2.index t (1 : Fin 2) * 1 + 1 * (x 1).val)
  have h1 : (x 1).val < 1 := (x 1).isLt
  omega

/-- Window 3's block at any point is all the labels, as a row. -/
theorem blk3_apply (c : Dev nD) (t : Fin cfg0.N) (x : S1x8192.Idx) (k : S8192.Idx)
    (hk : (k 0).val = (x 1).val) :
    (iblk m c 3 t : Vec F S1x8192 .i32) x = (m ((c : Thread nD τ).loc main_arg1) : S8192.Idx → BitVec 32) k := by
  obtain ⟨-, -, -, -, -, -, e0, e1, -⟩ := idx_facts t
  unfold iblk
  rw [View.read_apply]
  show (V m c main_v1 : S1x8192.Idx → BitVec 32) (((cfg0.win 3).blk t).view.emb x) = _
  rw [V_v1]
  refine shapeCast_apply _ _ _ k ?_
  rw [Shape.rowMajor_val_one, Shape.rowMajor_val_two]
  show (k 0).val = (win0_3.index t (0 : Fin 2) * 1 + 1 * (x 0).val) * 8192 + (win0_3.index t (1 : Fin 2) * 8192 + 1 * (x 1).val)
  have h0 : (x 0).val < 1 := (x 0).isLt
  omega

/-! ## The four input blocks, loaded whole, read at coordinates -/

/-- Row 128 t + r is a row of the arrays. -/
theorem row_lt (t : Fin cfg0.N) (r : Fin 128) : t.val * 128 + r.val < 8192 := by
  have ht : t.val < 64 := lt_of_lt_of_eq t.isLt (show cfg0.N = 64 from N_0)
  have hr := r.isLt
  omega

/-- The block of embeddings' rows at point t: local row r, column k is row 128 t + r, column k of the embeddings. -/
theorem ld0 (c : Dev nD) (t : Fin cfg0.N) (r k : Fin 128) :
    View.ld (iblk m c 0 t : Vec F S128x128 .f32) rEmbBlock (ix2 r k)
      = (m ((c : Thread nD τ).loc main_arg0) : S8192x128.Idx → Elt F .f32) (ix2 (⟨t.val * 128 + r.val, row_lt t r⟩ : Fin 8192) k) := by
  rw [View.ld_unit_zero (S := S128x128) hz]
  exact blk0_apply m c t (ix2 r k) _ rfl rfl

/-- The whole embeddings at any point: row q, column k. -/
theorem ld1 (c : Dev nD) (t : Fin cfg0.N) (q : Fin 8192) (k : Fin 128) :
    View.ld (iblk m c 1 t : Vec F S8192x128 .f32) rEmbAll (ix2 q k)
      = (m ((c : Thread nD τ).loc main_arg0) : S8192x128.Idx → Elt F .f32) (ix2 q k) := by
  rw [View.ld_unit_zero (S := S8192x128) hz]
  exact blk1_apply m c t (ix2 q k)

/-- The labels' column at point t: local row r is label 128 t + r. -/
theorem ld2 (c : Dev nD) (t : Fin cfg0.N) (r : Fin 128) :
    View.ld (iblk m c 2 t : Vec F S128x1 .i32) rCol (ix2 r (0 : Fin 1))
      = (m ((c : Thread nD τ).loc main_arg1) : S8192.Idx → BitVec 32) (ix1 (⟨t.val * 128 + r.val, row_lt t r⟩ : Fin 8192)) := by
  rw [View.ld_unit_zero (S := S128x1) hz]
  exact blk2_apply m c t (ix2 r (0 : Fin 1)) _ rfl

/-- The labels' row at any point: column q is label q. -/
theorem ld3 (c : Dev nD) (t : Fin cfg0.N) (q : Fin 8192) :
    View.ld (iblk m c 3 t : Vec F S1x8192 .i32) rRow (ix2 (0 : Fin 1) q)
      = (m ((c : Thread nD τ).loc main_arg1) : S8192.Idx → BitVec 32) (ix1 q) := by
  rw [View.ld_unit_zero (S := S1x8192) hz]
  exact blk3_apply m c t (ix2 (0 : Fin 1) q) _ rfl

end Cert.KernelIdeal.ArrRows

end
-- ==== Proof.ArrRows.lean ====
/-
  From the output's blocks to the output array.

  Every point writes its whole 128 x 1 output block back, and the 64 blocks tile the 8192 x 1 array: row p lies in the
  block of point p / 128, at local row p % 128. So the array after the region is ONE function of its index: at row p,
  the body's value at point p / 128 for local row p % 128. In particular at row 128 t + r it is the body's value for
  local row r at point t.
-/
import proofs.«176397_j5600637354498_1_alg».proof.Proof.IdealBody
import proofs.«176397_j5600637354498_1_alg».proof.Proof.ArrBlocks
import Idealize.ShloMosaic.Lib.Pipeline.Value
import Idealize.ShloMosaic.Lib.ValueIdx

set_option maxRecDepth 16384

noncomputable section

namespace Cert.KernelIdeal.ArrRows

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## From the output's blocks to the output array -/

/-- The body's value for local row r at point t. -/
def rowAt (c : Dev nD) (t : Fin cfg0.N) (r : Fin 128) : Elt F .f32 :=
  (rowsOf (grid0.coords t) (iblk m c 0 t) (iblk m c 1 t) (iblk m c 2 t) (iblk m c 3 t) : S128x1.Idx → Elt F .f32) (ix2 r (0 : Fin 1))

/-- The point whose block holds row p: p / 128; and p's row inside that block: p % 128. -/
def pointOf (i : S8192x1.Idx) : Fin cfg0.N :=
  ⟨(i 0).val / 128, by have h : (i 0).val < 8192 := (i 0).isLt; rw [show cfg0.N = 64 from N_0]; omega⟩
def localOf (i : S8192x1.Idx) : Fin 128 := ⟨(i 0).val % 128, Nat.mod_lt _ (by decide)⟩

theorem pointOf_eq (i : S8192x1.Idx) (t : Fin cfg0.N) (r : Fin 128) (hi : (i 0).val = t.val * 128 + r.val) : pointOf i = t :=
  Fin.ext (by show (i 0).val / 128 = t.val; have := r.isLt; omega)
theorem localOf_eq (i : S8192x1.Idx) (t : Fin cfg0.N) (r : Fin 128) (hi : (i 0).val = t.val * 128 + r.val) : localOf i = r :=
  Fin.ext (by show (i 0).val % 128 = r.val; have := r.isLt; omega)

/-- The output array as ONE function of its index: at row p, the body's value at point p / 128 for local row p % 128. -/
def G (c : Dev nD) : S8192x1.Idx → Elt F .f32 := fun i => rowAt m c (pointOf i) (localOf i)

theorem G_apply (c : Dev nD) (t : Fin cfg0.N) (r : Fin 128) (i : S8192x1.Idx) (hi : (i 0).val = t.val * 128 + r.val) :
    G m c i = rowAt m c t r := by
  unfold G
  rw [pointOf_eq i t r hi, localOf_eq i t r hi]

/-- What point t writes back is block t of that function. -/
theorem flushed_eq (c : Dev nD) (t : Fin cfg0.N) :
    (dats m 0 c).flushed 4 t = ((cfg0.win 4).blk t).view.read (Elt F) (G m c) := by
  show (cfg0.win 4).cut (grid0.coords t) ((dats m 0 c).after 4 t) = _
  rw [after_4]
  unfold outBlock
  rw [View.canon_unit_zero hz]
  obtain ⟨-, -, -, -, -, -, -, -, e0, e1⟩ := idx_facts t
  funext j
  have hj0 : (j 0).val < 128 := (j 0).isLt
  have hj1 : (j 1).val < 1 := (j 1).isLt
  show (rowsOf (grid0.coords t) (iblk m c 0 t) (iblk m c 1 t) (iblk m c 2 t) (iblk m c 3 t) : S128x1.Idx → Elt F .f32) j
    = G m c (((cfg0.win 4).blk t).view.emb j)
  rw [G_apply m c t ⟨(j 0).val, hj0⟩ _ (by
    show win0_4.index t (0 : Fin 2) * 128 + 1 * (j 0).val = t.val * 128 + (j 0).val
    omega)]
  unfold rowAt
  refine congrArg _ (funext fun a => Fin.ext ?_)
  match a with
  | ⟨0, _⟩ => rfl
  | ⟨1, _⟩ => show (j 1).val = 0; omega

/-- An index of the array is in point t's block iff each coordinate is in the block's range on its axis. -/
theorem mem_blk (t : Fin cfg0.N) (i : S8192x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v2).slice (win0_4.rect t)).set ↔ _
  rw [View.set_slice_whole, Rect.mem_set_unit]
  exact Iff.rfl

/-- Every index of the output array is in the block of the point that covers its row. -/
theorem cover (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hp : (pointOf i).val = (i 0).val / 128 := rfl
  obtain ⟨-, -, -, -, -, -, -, -, e0, e1⟩ := idx_facts (pointOf i)
  refine ⟨pointOf i, flush0_4 _, ?_⟩
  rw [mem_blk]
  intro a
  match a with
  | ⟨0, _⟩ => show win0_4.index (pointOf i) (0 : Fin 2) * 128 ≤ (i 0).val ∧ (i 0).val < win0_4.index (pointOf i) (0 : Fin 2) * 128 + 128; omega
  | ⟨1, _⟩ => show win0_4.index (pointOf i) (1 : Fin 2) * 1 ≤ (i 1).val ∧ (i 1).val < win0_4.index (pointOf i) (1 : Fin 2) * 1 + 1; omega

/-- The output array after the region is that function. -/
theorem final (c : Dev nD) : (dats m 0 c).arrAt 4 cfg0.N = G m c :=
  (dats m 0 c).arrAt_eq_of_cover 4 (G m c) (fun t _ => flushed_eq m c t) cover

/-- The output array after the region, at row 128 t + r, is the body's value for local row r at point t. -/
theorem arr_at (c : Dev nD) (t : Fin cfg0.N) (r : Fin 128) :
    ((dats m 0 c).arrAt 4 cfg0.N : S8192x1.Idx → Elt F .f32) (ix2 (⟨t.val * 128 + r.val, row_lt t r⟩ : Fin 8192) (0 : Fin 1))
      = (rowsOf (grid0.coords t) (iblk m c 0 t) (iblk m c 1 t) (iblk m c 2 t) (iblk m c 3 t) : S128x1.Idx → Elt F .f32) (ix2 r (0 : Fin 1)) := by
  rw [final]
  exact G_apply m c t r _ rfl

end Cert.KernelIdeal.ArrRows

end
-- ==== Proof.KernelLoss.lean ====
/-
  The kernel's final value. After the region the output array holds, at row 128 t + r, the block value of local row r
  at point t; that value is the mean log-probability of the positives of row 128 t + r of the whole arrays, because the
  four blocks the point reads are the rows 128 t … 128 t + 127 of the embeddings, all the embeddings, the labels of those
  rows and all the labels. Every row p below 8192 is 128 (p / 128) + p % 128, so the array is the column of the 8192 row
  values, and the last operations turn it into minus their mean: the loss.
-/
import proofs.«176397_j5600637354498_1_alg».proof.Proof.IdealVals
import proofs.«176397_j5600637354498_1_alg».proof.Proof.RowValue
import proofs.«176397_j5600637354498_1_alg».proof.Proof.TailMean
import proofs.«176397_j5600637354498_1_alg».proof.Proof.Loss
import proofs.«176397_j5600637354498_1_alg».proof.Proof.ArrRows

open scoped BigOperators

noncomputable section

namespace Cert.KernelIdeal.KernelLoss

open Cert.KernelIdeal Cert.KernelIdeal.Gen Cert.KernelIdeal.Body Cert.KernelIdeal.RowValue Cert.KernelIdeal.TailMean
open Idealize.ShloMosaic Idealize.ShloMosaic.TcCoe Idealize.ShloMosaic.ValueIdx Idealize.SL.Sem

/-- The final value from the facts about the region's result array and the blocks the points read. -/
theorem final_loss (m : (ℓ : Loc nD τ sig) → Buf (Elt Ideal) ℓ) (c : Dev nD)
    (harr : ∀ (t : Fin cfg0.N) (r : Fin 128) (hp : t.val * 128 + r.val < 8192),
      ((dats m 0 c).arrAt 4 cfg0.N : S8192x1.Idx → Ideal .f32) (ix2 (⟨t.val * 128 + r.val, hp⟩ : Fin 8192) (0 : Fin 1))
        = rowsOf (grid0.coords t) (iblk m c 0 t) (iblk m c 1 t) (iblk m c 2 t) (iblk m c 3 t) (ix2 r (0 : Fin 1)))
    (h0 : ∀ (t : Fin cfg0.N) (r k : Fin 128) (hp : t.val * 128 + r.val < 8192),
      View.ld (iblk m c 0 t) rEmbBlock (ix2 r k)
        = (m ((c : Thread nD τ).loc main_arg0) : S8192x128.Idx → EReal) (ix2 (⟨t.val * 128 + r.val, hp⟩ : Fin 8192) k))
    (h1 : ∀ (t : Fin cfg0.N) (q : Fin 8192) (k : Fin 128),
      View.ld (iblk m c 1 t) rEmbAll (ix2 q k) = (m ((c : Thread nD τ).loc main_arg0) : S8192x128.Idx → EReal) (ix2 q k))
    (h2 : ∀ (t : Fin cfg0.N) (r : Fin 128) (hp : t.val * 128 + r.val < 8192),
      View.ld (iblk m c 2 t) rCol (ix2 r (0 : Fin 1))
        = (m ((c : Thread nD τ).loc main_arg1) : S8192.Idx → BitVec 32) (ix1 (⟨t.val * 128 + r.val, hp⟩ : Fin 8192)))
    (h3 : ∀ (t : Fin cfg0.N) (q : Fin 8192),
      View.ld (iblk m c 3 t) rRow (ix2 (0 : Fin 1) q) = (m ((c : Thread nD τ).loc main_arg1) : S8192.Idx → BitVec 32) (ix1 q))
    (hcoords : ∀ t : Fin cfg0.N, (grid0.coords t 0).val = t.val) :
    (finalVal m c (Proc.devRef .tc main_v5) : S_.Idx → EReal)
      = fun _ => Cert.SupCon.loss (m ((c : Thread nD τ).loc main_arg0)) (m ((c : Thread nD τ).loc main_arg1)) := by
  have hN : cfg0.N = 64 := N_0
  have ht64 : ∀ t : Fin cfg0.N, t.val < 64 := fun t => lt_of_lt_of_eq t.isLt hN
  have hgrow : ∀ (t : Fin cfg0.N) (r : Fin 128) (hp : t.val * 128 + r.val < 8192),
      grow (grid0.coords t) r = (⟨t.val * 128 + r.val, hp⟩ : Fin 8192) := fun t r hp =>
    Fin.ext (by show (grid0.coords t 0).val * 128 + r.val = t.val * 128 + r.val; rw [hcoords])
  have hbound : ∀ (t : Fin cfg0.N) (r : Fin 128), t.val * 128 + r.val < 8192 := fun t r => by
    have := ht64 t; have := r.isLt; omega
  refine (show finalVal m c (Proc.devRef .tc main_v5)
      = StableHlo.after (hostOps1 (F := Ideal)) (exitVal m c) (Proc.devRef .tc main_v5) from ?_).trans ?_
  · unfold finalVal
    simp only [List.flatten_cons, List.flatten_nil, List.append_nil]
  refine (tail_mean_of (exitVal m c) (Cert.SupCon.meanLogProb (m ((c : Thread nD τ).loc main_arg0)) (m ((c : Thread nD τ).loc main_arg1)))
    fun p => ?_).trans rfl
  rw [exitVal_result]
  obtain ⟨t, r, hpe⟩ : ∃ (t : Fin cfg0.N) (r : Fin 128), t.val * 128 + r.val = p.val :=
    ⟨⟨p.val / 128, by have := p.isLt; rw [hN]; omega⟩, ⟨p.val % 128, Nat.mod_lt _ (by decide)⟩, by
      show p.val / 128 * 128 + p.val % 128 = p.val
      omega⟩
  obtain rfl : p = (⟨t.val * 128 + r.val, hbound t r⟩ : Fin 8192) := Fin.ext hpe.symm
  rw [harr t r (hbound t r), ← hgrow t r (hbound t r)]
  unfold rowsOf
  exact payload_row (grid0.coords t) _ _ _ _ _ _
    (fun r' k => by rw [hgrow t r' (hbound t r')]; exact h0 t r' k (hbound t r'))
    (fun q k => h1 t q k)
    (fun r' => by rw [hgrow t r' (hbound t r')]; exact h2 t r' (hbound t r'))
    (fun q => h3 t q) r

/-- The program's final value on a core is the loss of the launch memory's two argument arrays. -/
theorem kernel_loss (m : (ℓ : Loc nD τ sig) → Buf (Elt Ideal) ℓ) (c : Dev nD) :
    (finalVal m c (Proc.devRef .tc main_v5) : S_.Idx → EReal)
      = fun _ => Cert.SupCon.loss (m ((c : Thread nD τ).loc main_arg0)) (m ((c : Thread nD τ).loc main_arg1)) :=
  final_loss m c
    (fun t r _ => Cert.KernelIdeal.ArrRows.arr_at m c t r)
    (fun t r k _ => Cert.KernelIdeal.ArrRows.ld0 m c t r k)
    (fun t q k => Cert.KernelIdeal.ArrRows.ld1 m c t q k)
    (fun t r _ => Cert.KernelIdeal.ArrRows.ld2 m c t r)
    (fun t q => Cert.KernelIdeal.ArrRows.ld3 m c t q)
    Cert.KernelIdeal.ArrRows.coords_val

end Cert.KernelIdeal.KernelLoss
-- ==== Proof.IdealValue.lean ====
/-
  The program's run at the exact instance ends with the loss of its two arguments in its result, the arguments as
  launched.

  The run's statement names the result at the end as the last host operations' value of the region's result array; that
  value is the loss of the launch memory's embeddings and labels. The arguments end as launched by the frame.
-/
import proofs.«176397_j5600637354498_1_alg».proof.Proof.IdealFrame
import proofs.«176397_j5600637354498_1_alg».proof.Proof.KernelLoss

noncomputable section

namespace Cert.KernelIdeal.Run

open Cert.KernelIdeal Cert.KernelIdeal.Gen Cert.KernelIdeal.Body
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- From the run with every window's array named: the result ends at the loss, the arguments as launched. -/
theorem value_of_run
    (hrun : θ_run defs (onTc (τ := τ) (main (F := Ideal))) ⟨m, fun _ => 0, ρ⟩ (fun r => ∀ c : Dev nD,
      (∀ w : Fin cfg0.W, r.2.mem ((cfg0.win w).arr.view.loc (c : Thread nD τ)) = (dats m 0 c).arrAt w cfg0.N)
      ∧ r.2.mem ((c : Thread nD τ).loc main_arg1) = V m c main_arg1
      ∧ r.2.mem ((c : Thread nD τ).loc main_v5) = finalVal m c (Proc.devRef .tc main_v5))) :
    θ_run defs (onTc (τ := τ) (main (F := Ideal))) ⟨m, fun _ => 0, ρ⟩ (fun r => ∀ c : Dev nD,
      r.2.mem ((c.tc : Thread nD τ).loc main_v5)
          = (fun _ => Cert.SupCon.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c).2.2.trans (Cert.KernelIdeal.KernelLoss.kernel_loss m c),
        ((h c).1 0).trans (((dats m 0 c).arrAt_in 0 rfl _).trans ((A_eq m c 0).trans (V_arg0 m c))),
        (h c).2.1.trans (V_arg1 m c)⟩)
    hrun

/-- The program at the exact instance runs and ends with the loss of its arguments in its result, the arguments as
    launched. -/
theorem value :
    θ_run defs (onTc (τ := τ) (main (F := Ideal))) ⟨m, fun _ => 0, ρ⟩ (fun r => ∀ c : Dev nD,
      r.2.mem ((c.tc : Thread nD τ).loc main_v5)
          = (fun _ => Cert.SupCon.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  value_of_run m ρ (run_main m ρ)

end Cert.KernelIdeal.Run

end
-- ==== Proof.RefSim.lean ====
/-
  The reference's pointwise arrays read at explicit coordinates: the similarity matrix (inner product of two rows over
  the temperature), the diagonal (a comparison of the two coordinates' words, which do not wrap below 2^32) and the
  positives' mask (equal labels, less the diagonal).
-/
import proofs.«176397_j5600637354498_1_alg».proof.Proof.Gen.ReferenceIdeal.Read
import proofs.«176397_j5600637354498_1_alg».proof.Proof.Loss

open scoped BigOperators

noncomputable section

namespace Cert.ReferenceIdeal.RefValue

open Cert.ReferenceIdeal Cert.ReferenceIdeal.Gen Cert.ReferenceIdeal.Read Idealize.ShloMosaic Idealize.ShloMosaic.ValueIdx Cert.SupCon

/-- The embeddings and the labels, as the reference's stages take them. -/
abbrev Emb := (⟨S8192x128, .f32⟩ : BufTy).Contents (Elt Ideal)
abbrev Lab := (⟨S8192, .i32⟩ : BufTy).Contents (Elt Ideal)

/-- An equality test of two words, converted to a float, is the indicator of their equality. -/
theorem uitofp_cmpi_eq (x y : BitVec 32) :
    FloatOps.uitofp (F := Ideal) .f32 (IntOp.cmpi .eq x y) = ind (x = y) := by
  show (((IntOp.cmpi .eq x y).toNat : ℝ) : EReal) = ind (x = y)
  unfold ind IntOp.cmpi
  by_cases h : x = y
  · rw [if_pos h]; subst h; simp
  · rw [if_neg h]; simp [h]

/-- Two coordinates below 8192 have equal 32-bit words exactly when they are equal. -/
theorem ofNat_eq_iff (p c : Fin 8192) : (BitVec.ofNat 32 p.val = BitVec.ofNat 32 c.val) ↔ p = c := by
  constructor
  · intro h
    have h' := congrArg BitVec.toNat h
    rw [BitVec.toNat_ofNat, BitVec.toNat_ofNat, Nat.mod_eq_of_lt (by have := p.isLt; omega),
      Nat.mod_eq_of_lt (by have := c.isLt; omega)] at h'
    exact Fin.ext h'
  · intro h; rw [h]

/-- The similarity matrix at (p, c). -/
theorem v3_eq (x0 : Emb) (p c : Fin 8192) : val_main_v3 (F := Ideal) x0 (ix2 p c) = sim x0 p c := by
  rw [val_main_v3_apply, val_main_v1_apply, val_main_v2_apply, val_main_cst_apply]
  simp only [Ideal.hostDivf_def, Ideal.ofBits_def]
  unfold sim
  refine congrArg (fun s => Ideal.div s temp) (Finset.sum_congr rfl fun k _ => ?_)
  rw [val_main_v0_apply]
  have e1 : lidx_main_v1 (ix2 p c) k = ix2 p k := funext fun a => by
    match a with
    | ⟨0, _⟩ => rfl
    | ⟨1, _⟩ => rfl
  have e2 : idx_main_v0 (ridx_main_v1 (ix2 p c) k) = ix2 c k := funext fun a => by
    match a with
    | ⟨0, _⟩ => rfl
    | ⟨1, _⟩ => rfl
  rw [e1, e2]

/-- The diagonal at (p, c). -/
theorem v9_eq (p c : Fin 8192) : val_main_v9 (F := Ideal) (ix2 p c) = eye p c := by
  rw [val_main_v9_apply, val_main_v8_apply, val_main_v7_apply, val_main_v4_apply, val_main_v5_apply, val_main_v6_apply,
    val_main_c_apply, uitofp_cmpi_eq]
  unfold eye ind
  have h0 : IntOp.addi (BitVec.ofNat 32 ((ix2 p c : S8192x8192.Idx) 0).val) 0#32 = BitVec.ofNat 32 p.val := by
    show BitVec.ofNat 32 p.val + 0#32 = _
    rw [BitVec.add_zero]
  rw [h0]
  show (if BitVec.ofNat 32 p.val = BitVec.ofNat 32 c.val then (1 : EReal) else 0) = if p = c then 1 else 0
  by_cases h : p = c
  · rw [if_pos h, if_pos ((ofNat_eq_iff p c).2 h)]
  · rw [if_neg h, if_neg (fun h' => h ((ofNat_eq_iff p c).1 h'))]

/-- The positives' mask at (p, c). -/
theorem v16_eq (x1 : Lab) (p c : Fin 8192) : val_main_v16 (F := Ideal) x1 (ix2 p c) = posMask x1 p c := by
  rw [val_main_v16_apply, val_main_v15_apply, val_main_v14_apply, val_main_v12_apply, val_main_v13_apply,
    val_main_v10_apply, val_main_v11_apply, v9_eq, uitofp_cmpi_eq]
  simp only [Ideal.subf_def]
  unfold posMask
  have e1 : idx_main_v10 (idx_main_v12 (ix2 p c)) = ix1 p := funext fun a => by
    match a with
    | ⟨0, _⟩ => rfl
  have e2 : idx_main_v11 (idx_main_v13 (ix2 p c)) = ix1 c := funext fun a => by
    match a with
    | ⟨0, _⟩ => rfl
  rw [e1, e2]

end Cert.ReferenceIdeal.RefValue

end
-- ==== Proof.RefMax.lean ====
/-
  The reference's row maximum: a reduction with a maximum body along the columns, read at row p as the fold of max over
  the row's similarities from the word of minus infinity.
-/
import proofs.«176397_j5600637354498_1_alg».proof.Proof.RefSim

open scoped BigOperators

noncomputable section

namespace Cert.ReferenceIdeal.RefValue

open Cert.ReferenceIdeal Cert.ReferenceIdeal.Gen Cert.ReferenceIdeal.Read Idealize.ShloMosaic Idealize.ShloMosaic.ValueIdx Cert.SupCon

/-- Dropping the column axis of the square matrix leaves the rows. -/
theorem reduces_d1 : S8192x8192.Reduces [1] S8192 := by decide

/-- Row p with column k put back is the coordinate (p, k). -/
theorem lift_ix2 (p : Fin 8192) (k : Fin (S8192x8192.size 1)) :
    reduces_d1.lift (ix1 p) k = ix2 p (⟨k.val, k.isLt⟩ : Fin 8192) := by
  funext c; apply Fin.ext
  fin_cases c <;> rfl

/-- The row maximum at p. -/
theorem v17_eq (x0 : Emb) (p : Fin 8192) : val_main_v17 (F := Ideal) x0 (ix1 p) = rowMax x0 p := by
  unfold val_main_v17
  rw [Host.reduce_eq_fold_single FloatOps.maximumf _ _ reducesTo_S8192x8192_S8192_d1 reduces_d1 h_S_]
  unfold rowMax
  have hf : (val_main_v3 (F := Ideal) x0 ∘ reduces_d1.lift (ix1 p)) = fun c : Fin 8192 => sim x0 p c :=
    funext fun k => by
      show val_main_v3 (F := Ideal) x0 (reduces_d1.lift (ix1 p) k) = _
      rw [lift_ix2]
      exact v3_eq x0 p _
  exact congrArg (fun f => Finset.fold max negInf f (Finset.univ : Finset (Fin 8192))) hf

end Cert.ReferenceIdeal.RefValue

end
-- ==== Proof.RefRow.lean ====
/-
  The reference's row quantities read at explicit coordinates: the logit (similarity less the row maximum), the
  denominator (the sum of the exponentials off the diagonal), the log-probability, the count of positives clipped below
  at one, and the row's mean log-probability over its positives.
-/
import proofs.«176397_j5600637354498_1_alg».proof.Proof.RefMax

open scoped BigOperators

noncomputable section

namespace Cert.ReferenceIdeal.RefValue

open Cert.ReferenceIdeal Cert.ReferenceIdeal.Gen Cert.ReferenceIdeal.Read Idealize.ShloMosaic Idealize.ShloMosaic.ValueIdx Cert.SupCon

/-- The logit at (p, c). -/
theorem v20_eq (x0 : Emb) (p c : Fin 8192) : val_main_v20 (F := Ideal) x0 (ix2 p c) = logit x0 p c := by
  rw [val_main_v20_apply, val_main_v19_apply, val_main_v18_apply, v3_eq]
  have e : idx_main_v18 (idx_main_v19 (ix2 p c)) = ix1 p := funext fun a => by
    match a with
    | ⟨0, _⟩ => rfl
  rw [e, v17_eq]
  simp only [Ideal.subf_def]
  rfl

/-- One less the diagonal at (p, c). -/
theorem v23_eq (p c : Fin 8192) : val_main_v23 (F := Ideal) (ix2 p c) = one - eye p c := by
  rw [val_main_v23_apply, val_main_v22_apply, val_main_cst_1_apply, v9_eq]
  simp only [Ideal.subf_def, Ideal.ofBits_def]

/-- The exponential of the logit, off the diagonal, at (p, c). -/
theorem v24_eq (x0 : Emb) (p c : Fin 8192) :
    val_main_v24 (F := Ideal) x0 (ix2 p c) = Ideal.exp (logit x0 p c) * (one - eye p c) := by
  rw [val_main_v24_apply, val_main_v21_apply, v20_eq, v23_eq]
  simp only [Ideal.mulf_def, Ideal.hostUnary_exp_def]

/-- Row p's coordinate with column k put back, as the row sums' index function writes it. -/
theorem idx25_ix (p k : Fin 8192) : idx_main_v25 (ix1 p) k = ix2 p k := funext fun a => by
  match a with
  | ⟨0, _⟩ => rfl
  | ⟨1, _⟩ => rfl

/-- The denominator at p. -/
theorem v25_eq (x0 : Emb) (p : Fin 8192) : val_main_v25 (F := Ideal) x0 (ix1 p) = denom x0 p := by
  rw [val_main_v25_apply, val_main_cst_2_apply]
  simp only [Ideal.ofBits_def, Ideal.ofBits_zero_f32, zero_add]
  unfold denom
  refine Finset.sum_congr rfl fun k _ => ?_
  rw [idx25_ix, v24_eq]

/-- The logarithm of the denominator plus the stabiliser, at (p, c). -/
theorem v30_eq (x0 : Emb) (p c : Fin 8192) :
    val_main_v30 (F := Ideal) x0 (ix2 p c) = Ideal.log (denom x0 p + eps) := by
  rw [val_main_v30_apply, val_main_v29_apply, val_main_v28_apply, val_main_v26_apply, val_main_v27_apply,
    val_main_cst_3_apply]
  have e : idx_main_v26 (idx_main_v30 (ix2 p c)) = ix1 p := funext fun a => by
    match a with
    | ⟨0, _⟩ => rfl
  rw [e, v25_eq]
  simp only [Ideal.addf_def, Ideal.hostUnary_log_def, Ideal.ofBits_def]

/-- The log-probability at (p, c). -/
theorem v31_eq (x0 : Emb) (p c : Fin 8192) : val_main_v31 (F := Ideal) x0 (ix2 p c) = logProb x0 p c := by
  rw [val_main_v31_apply, v20_eq, v30_eq]
  simp only [Ideal.subf_def]
  rfl

/-- The count of positives of p. -/
theorem v32_eq (x1 : Lab) (p : Fin 8192) :
    val_main_v32 (F := Ideal) x1 (ix1 p) = ∑ c : Fin 8192, posMask x1 p c := by
  rw [val_main_v32_apply, val_main_cst_4_apply]
  simp only [Ideal.ofBits_def, Ideal.ofBits_zero_f32, zero_add]
  refine Finset.sum_congr rfl fun k _ => ?_
  have e : idx_main_v32 (ix1 p) k = ix2 p k := funext fun a => by
    match a with
    | ⟨0, _⟩ => rfl
    | ⟨1, _⟩ => rfl
  rw [e, v16_eq]

/-- The count of positives of p, at least one. -/
theorem v33_eq (x1 : Lab) (p : Fin 8192) : val_main_v33 (F := Ideal) x1 (ix1 p) = maskSum x1 p := by
  rw [val_main_v33_apply, val_main_call0_v1_apply, val_main_call0_v0_apply, val_main_cst_5_apply, v32_eq]
  simp only [Ideal.maximumf_def, Ideal.ofBits_def]
  rfl

/-- The positives' log-probabilities at (p, c). -/
theorem v34_eq (x0 : Emb) (x1 : Lab) (p c : Fin 8192) :
    val_main_v34 (F := Ideal) x0 x1 (ix2 p c) = posMask x1 p c * logProb x0 p c := by
  rw [val_main_v34_apply, v16_eq, v31_eq]
  simp only [Ideal.mulf_def]

/-- The sum of the positives' log-probabilities of row p. -/
theorem v35_eq (x0 : Emb) (x1 : Lab) (p : Fin 8192) :
    val_main_v35 (F := Ideal) x0 x1 (ix1 p) = ∑ c : Fin 8192, posMask x1 p c * logProb x0 p c := by
  rw [val_main_v35_apply, val_main_cst_6_apply]
  simp only [Ideal.ofBits_def, Ideal.ofBits_zero_f32, zero_add]
  refine Finset.sum_congr rfl fun k _ => ?_
  have e : idx_main_v35 (ix1 p) k = ix2 p k := funext fun a => by
    match a with
    | ⟨0, _⟩ => rfl
    | ⟨1, _⟩ => rfl
  rw [e, v34_eq]

/-- Row p's mean log-probability over its positives. -/
theorem v36_eq (x0 : Emb) (x1 : Lab) (p : Fin 8192) :
    val_main_v36 (F := Ideal) x0 x1 (ix1 p) = meanLogProb x0 x1 p := by
  rw [val_main_v36_apply, v35_eq, v33_eq]
  simp only [Ideal.hostDivf_def]
  rfl

end Cert.ReferenceIdeal.RefValue

end
-- ==== Proof.RefLoss.lean ====
/-
  The reference program's result is the loss (this module's lemma joins the reference's composed term to the
  specification of the loss, index by index).
-/
import proofs.«176397_j5600637354498_1_alg».proof.Proof.Gen.ReferenceIdeal.Read
import proofs.«176397_j5600637354498_1_alg».proof.Proof.Loss
import proofs.«176397_j5600637354498_1_alg».proof.Proof.RefRow

open scoped BigOperators

noncomputable section

namespace Cert.ReferenceIdeal.RefValue

open Cert.ReferenceIdeal Cert.ReferenceIdeal.Gen Cert.ReferenceIdeal.Read Idealize.ShloMosaic Idealize.ShloMosaic.ValueIdx Cert.SupCon

/-- A row index is its one coordinate. -/
def idxEquiv1 : S8192.Idx ≃ Fin 8192 where
  toFun j := j 0
  invFun p := ix1 p
  left_inv j := (eq_ix1 j).symm
  right_inv _ := rfl

/-- The sum of the rows' values over the row indices is the sum over the rows. -/
theorem sum_v36 (x0 : Emb) (x1 : Lab) :
    ∑ j : S8192.Idx, val_main_v36 (F := Ideal) x0 x1 j = ∑ p : Fin 8192, meanLogProb x0 x1 p :=
  (Equiv.sum_comp idxEquiv1.symm (val_main_v36 (F := Ideal) x0 x1)).symm.trans
    (Finset.sum_congr rfl fun p _ => v36_eq x0 x1 p)

/-- The reference's result: minus the mean of the rows' values, which is the loss. -/
theorem val_eq_loss (x0 : (⟨Cert.ReferenceIdeal.S8192x128, .f32⟩ : BufTy).Contents (Elt Ideal))
    (x1 : (⟨Cert.ReferenceIdeal.S8192, .i32⟩ : BufTy).Contents (Elt Ideal)) :
    Cert.ReferenceIdeal.Read.val_main_v39 (F := Ideal) x0 x1 = fun _ => Cert.SupCon.loss x0 x1 := by
  funext i
  rw [val_main_v39_apply, val_main_v38_apply, val_main_v37_apply, val_main_cst_7_apply, val_main_cst_8_apply, sum_v36]
  simp only [Ideal.hostNegf_def, Ideal.negf_def, Ideal.hostDivf_def, Ideal.ofBits_def, Ideal.ofBits_zero_f32, zero_add]
  rfl

end Cert.ReferenceIdeal.RefValue

end
-- ==== Proof.lean ====
/-
  The supervised contrastive loss of 8192 embeddings of width 128 with integer labels: a kernel that works through the
  rows in 64 blocks of 128, against a reference that forms the whole 8192 x 8192 similarity matrix.

  Both programs compute ONE function of the embeddings and the labels (Proof/Loss.lean). For rows p and c the
  similarity is the inner product of rows p and c over the temperature; row p's logits are its similarities less their
  maximum; its denominator sums the exponentials of the logits over the columns other than p; the log-probability of
  column c is its logit less the logarithm of the denominator plus a small constant; row p's value is the sum of the
  log-probabilities over the columns with p's label, p excluded, divided by their number taken at least one; the loss is
  minus the mean of the 8192 row values.

  The reference computes these arrays whole, one operation each. Read index by index, each operation's result is the
  corresponding quantity above — the diagonal is a comparison of the two coordinates' words, which do not wrap; the
  row maximum is a fold of max from minus infinity; each sum starts from zero — and its final scalar is the loss
  (Proof/RefLoss.lean).

  The kernel's grid point t holds rows 128 t … 128 t + 127 of the embeddings with their labels, and all the embeddings
  and all the labels. It forms the 128 x 8192 strip of similarities of its rows against every row and from the strip
  the 128 row values by the same formulas; a row's value depends on that row's strip only, so the value stored for
  local row r is the value of row 128 t + r. The 64 blocks written back tile the 8192 x 1 result array, which therefore
  holds the 8192 row values; the operations after the region sum them, divide by 8192 and negate: the loss. So from
  memories that agree on the two arguments both programs end with one extended real in their results.

  The claim's five parts. The word-level kernel and the exact kernel run and leave the arguments as launched: the
  embeddings are read through two windows at once, the array's ownership share dealt to them as its two halves, and
  are never written; the labels are only read, by the two reshapes. The reference likewise, by its run with the result dropped. The exact
  kernel is the word-level kernel's own text read over the extended reals, no operation rewritten, so nothing is to be
  preserved. And the two exact programs agree: each ends at the loss of the arguments.
-/
import proofs.«176397_j5600637354498_1_alg».proof.Defs
import proofs.«176397_j5600637354498_1_alg».proof.Proof.Gen.Kernel
import proofs.«176397_j5600637354498_1_alg».proof.Proof.Gen.KernelIdeal
import proofs.«176397_j5600637354498_1_alg».proof.Proof.Gen.ReferenceIdeal
import proofs.«176397_j5600637354498_1_alg».proof.Proof.Gen.ReferenceIdeal.Run
import proofs.«176397_j5600637354498_1_alg».proof.Proof.Gen.ReferenceIdeal.Read
import proofs.«176397_j5600637354498_1_alg».proof.Proof.Gen.Pre_finite_inputs
import proofs.«176397_j5600637354498_1_alg».proof.Proof.BitsFrame
import proofs.«176397_j5600637354498_1_alg».proof.Proof.IdealValue
import proofs.«176397_j5600637354498_1_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Run.frame m ρ

/-- The exact kernel runs and leaves its arguments as launched. -/
theorem frame_ki : Cert.frame_KernelIdeal := fun m ρ _ => Cert.KernelIdeal.Run.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The exact kernel is the word-level kernel's own text: no operation was rewritten. -/
theorem preserves : Cert.preserves_Kernel_KernelIdeal := trivial

/-- From memories agreeing on the arguments both programs end with the loss of the embeddings and the labels in their
    results: the kernel by its run, the reference because its composed term is the loss. -/
theorem algebraic : Cert.algebraic_KernelIdeal_ReferenceIdeal := by
  intro m ρ m' ρ' _ hagree
  refine ⟨fun c => (fun _ => Cert.SupCon.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Run.value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v39_eq (F := Ideal) _ _).trans
    ((Cert.ReferenceIdeal.RefValue.val_eq_loss _ _).trans ?_)
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
